-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4x4096x4096 : Shape := ⟨3, ![4, 4096, 4096]⟩
abbrev S256x64 : Shape := ⟨2, ![256, 64]⟩
abbrev S128x1 : Shape := ⟨2, ![128, 1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S256x64 : S_.BroadcastsInDim S256x64 (![] : Fin 0 → Fin S256x64.rank)
  reducesTo_S256x64_S_d0_1 : S256x64.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  main_v18

def fn {F : FTy → Type} [FloatOps F] (main_arg0 : FVec F S4096x256 .f32) (main_arg1 : FVec F S4x4096x4096 .f32) (main_arg2 : FVec F S256x64 .f32) (main_arg3 : FVec F S128x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_v13 main_v16
-- ==== Kernel.lean ====
abbrev S4096x256 : Shape := ⟨2, ![4096, 256]⟩
abbrev S4x4096x4096 : Shape := ⟨3, ![4, 4096, 4096]⟩
abbrev S256x64 : Shape := ⟨2, ![256, 64]⟩
abbrev S128x1 : Shape := ⟨2, ![128, 1]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S4x4096x64 : Shape := ⟨3, ![4, 4096, 64]⟩
abbrev S1x4096x256 : Shape := ⟨3, ![1, 4096, 256]⟩
abbrev S1x256 : Shape := ⟨2, ![1, 256]⟩
abbrev S1x4096x64 : Shape := ⟨3, ![1, 4096, 64]⟩
abbrev S256 : Shape := ⟨1, ![256]⟩
abbrev S4096x4x64 : Shape := ⟨3, ![4096, 4, 64]⟩
abbrev S_ : Shape := ⟨0, ![]⟩

abbrev nBuf : Space → Nat
  | .hbm => 22
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S256x64, .f32⟩
  | .hbm, ⟨3, _⟩ => ⟨S128x1, .f32⟩
  | .hbm, ⟨4, _⟩ => ⟨S4096x64, .f32⟩
  | .hbm, ⟨5, _⟩ => ⟨S64x1, .f32⟩
  | .hbm, ⟨6, _⟩ => ⟨S4096x1, .f32⟩
  | .hbm, ⟨7, _⟩ => ⟨S64x1, .f32⟩
  | .hbm, ⟨8, _⟩ => ⟨S4096x1, .f32⟩
  | .hbm, ⟨9, _⟩ => ⟨S1x4096, .f32⟩
  | .hbm, ⟨10, _⟩ => ⟨S4x4096x4096, .f32⟩
  | .hbm, ⟨11, _⟩ => ⟨S4x4096x64, .f32⟩
  | .hbm, ⟨12, _⟩ => ⟨S4096x4x64, .f32⟩
  | .hbm, ⟨13, _⟩ => ⟨S4096x256, .f32⟩
  | .hbm, ⟨14, _⟩ => ⟨S_, .f32⟩
  | .hbm, ⟨15, _⟩ => ⟨S4096x256, .f32⟩
  | .hbm, ⟨16, _⟩ => ⟨S4096x256, .i1⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .local _ .vmem, ⟨0, _⟩ => ⟨S1x4096x256, .f32⟩
  | .local _ .vmem, ⟨1, _⟩ => ⟨S1x4096x256, .f32⟩
  | .local _ .vmem, ⟨2, _⟩ => ⟨S4096x1, .f32⟩
  | .local _ .vmem, ⟨3, _⟩ => ⟨S1x256, .f32⟩
  | .local _ .vmem, ⟨4, _⟩ => ⟨S1x256, .f32⟩
  | .local _ .vmem, ⟨5, _⟩ => ⟨S256x64, .f32⟩
  | .local _ .vmem, ⟨6, _⟩ => ⟨S256x64, .f32⟩
  | .local _ .vmem, ⟨7, _⟩ => ⟨S1x4096x256, .f32⟩
  | .local _ .vmem, ⟨8, _⟩ => ⟨S1x4096x256, .f32⟩
  | .local _ .vmem, ⟨9, _⟩ => ⟨S1x4096x64, .f32⟩
  | .local _ .vmem, ⟨10, _⟩ => ⟨S1x4096x64, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S128x1_S64x1_0_0 : S128x1.Slices ![0, 0] S64x1
  slices_S128x1_S64x1_64_0 : S128x1.Slices ![64, 0] S64x1
  transposes_S4096x1_S1x4096_1_0 : S4096x1.Transposes [1, 0] S1x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  reduces_S4096x256_S256 : S4096x256.Reduces [0] S256
  shapeCasts_S256_S1x256 : S256.ShapeCasts S1x256
  shapeCasts_S4096x256_S1x4096x256 : S4096x256.ShapeCasts S1x4096x256
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  transposes_S4x4096x64_S4096x4x64_1_0_2 : S4x4096x64.Transposes [1, 0, 2] S4096x4x64
  shapeCasts_S4096x4x64_S4096x256 : S4096x4x64.ShapeCasts S4096x256
  bcast_S_S4096x256 : S_.BroadcastsInDim S4096x256 (![] : Fin 0 → Fin S4096x256.rank)
  dot_S4096x256_S256x64_S4096x64_1_0_0_1_n_n_wf : DotDims.WF S4096x256 S256x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x4096.size a
  hwx0_0 : ∀ i : grid0.Coords, EltTy.bits .f32 = 32 ∨ (Rect.block (s := S4x4096x4096) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S4096x64.size a
  hwx0_3 : ∀ i : grid0.Coords, EltTy.bits .f32 = 32 ∨ (Rect.block (s := S4096x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x256.size a ≤ S4x4096x4096.size a
  hwx0_4 : ∀ i : grid0.Coords, EltTy.bits .f32 = 32 ∨ (Rect.block (s := S4x4096x4096) S1x4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x64.size a ≤ S4x4096x64.size a
  hwx0_5 : ∀ i : grid0.Coords, EltTy.bits .f32 = 32 ∨ (Rect.block (s := S4x4096x64) S1x4096x64.size (cc0_transform_5 i) (hinb0_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg1) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x4096x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x256 : Shape := ⟨2, ![4096, 256]⟩
abbrev S4x4096x4096 : Shape := ⟨3, ![4, 4096, 4096]⟩
abbrev S256x64 : Shape := ⟨2, ![256, 64]⟩
abbrev S128x1 : Shape := ⟨2, ![128, 1]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S1x4096x4096 : Shape := ⟨3, ![1, 4096, 4096]⟩
abbrev S4x4096 : Shape := ⟨2, ![4, 4096]⟩
abbrev S4x1x4096 : Shape := ⟨3, ![4, 1, 4096]⟩
abbrev S4x4096x64 : Shape := ⟨3, ![4, 4096, 64]⟩
abbrev S4096x4x64 : Shape := ⟨3, ![4096, 4, 64]⟩

abbrev nBuf : Space → Nat
  | .hbm => 63
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x4096x4096, .f32⟩
  | .hbm, ⟨2, _⟩ => ⟨S256x64, .f32⟩
  | .hbm, ⟨3, _⟩ => ⟨S128x1, .f32⟩
  | .hbm, ⟨4, _⟩ => ⟨S4096x64, .f32⟩
  | .hbm, ⟨5, _⟩ => ⟨S64x1, .f32⟩
  | .hbm, ⟨6, _⟩ => ⟨S4096x1, .f32⟩
  | .hbm, ⟨7, _⟩ => ⟨S64x1, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096x4096, .f32⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S4x4096x4096, .f32⟩
  | .hbm, ⟨26, _⟩ => ⟨S4x4096x4096, .i1⟩
  | .hbm, ⟨27, _⟩ => ⟨S_, .f32⟩
  | .hbm, ⟨28, _⟩ => ⟨S_, .f32⟩
  | .hbm, ⟨29, _⟩ => ⟨S4x4096x4096, .f32⟩
  | .hbm, ⟨30, _⟩ => ⟨S4x4096x4096, .f32⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S4x1x4096, .f32⟩
  | .hbm, ⟨37, _⟩ => ⟨S4x4096x4096, .f32⟩
  | .hbm, ⟨38, _⟩ => ⟨S4x4096x4096, .f32⟩
  | .hbm, ⟨39, _⟩ => ⟨S4x4096x4096, .f32⟩
  | .hbm, ⟨40, _⟩ => ⟨S_, .f32⟩
  | .hbm, ⟨41, _⟩ => ⟨S4x4096, .f32⟩
  | .hbm, ⟨42, _⟩ => ⟨S4x1x4096, .f32⟩
  | .hbm, ⟨43, _⟩ => ⟨S4x4096x4096, .f32⟩
  | .hbm, ⟨44, _⟩ => ⟨S4x4096x4096, .f32⟩
  | .hbm, ⟨45, _⟩ => ⟨S4x4096x64, .f32⟩
  | .hbm, ⟨46, _⟩ => ⟨S4096x4x64, .f32⟩
  | .hbm, ⟨47, _⟩ => ⟨S4096x256, .f32⟩
  | .hbm, ⟨48, _⟩ => ⟨S_, .f32⟩
  | .hbm, ⟨49, _⟩ => ⟨S4096x256, .f32⟩
  | .hbm, ⟨50, _⟩ => ⟨S4096x256, .i1⟩
  | .hbm, ⟨51, _⟩ => ⟨S_, .f32⟩
  | .hbm, ⟨52, _⟩ => ⟨S4096x256, .f32⟩
  | .hbm, ⟨53, _⟩ => ⟨S4096x256, .i1⟩
  | .hbm, ⟨54, _⟩ => ⟨S_, .f32⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_cst_0 : Ref sig .tc := ⟨.hbm, 51, rfl⟩
abbrev main_call2_v2 : Ref sig .tc := ⟨.hbm, 52, rfl⟩
abbrev main_call2_v3 : Ref sig .tc := ⟨.hbm, 53, rfl⟩
abbrev main_call2_cst_1 : Ref sig .tc := ⟨.hbm, 54, rfl⟩
abbrev main_call2_call0_v0 : Ref sig .tc := ⟨.hbm, 55, rfl⟩
abbrev main_call2_call0_v1 : Ref sig .tc := ⟨.hbm, 56, rfl⟩
abbrev main_call2_v4 : Ref sig .tc := ⟨.hbm, 57, rfl⟩
abbrev main_call2_v5 : Ref sig .tc := ⟨.hbm, 58, rfl⟩
abbrev main_call2_cst_2 : Ref sig .tc := ⟨.hbm, 59, rfl⟩
abbrev main_call2_v6 : Ref sig .tc := ⟨.hbm, 60, rfl⟩
abbrev main_call2_v7 : Ref sig .tc := ⟨.hbm, 61, rfl⟩
abbrev main_v30 : Ref sig .tc := ⟨.hbm, 62, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  transposes_S4x4096x64_S4096x4x64_1_0_2 : S4x4096x64.Transposes [1, 0, 2] S4096x4x64
  shapeCasts_S4096x4x64_S4096x256 : S4096x4x64.ShapeCasts S4096x256
  bcast_S_S4096x256 : S_.BroadcastsInDim S4096x256 (![] : Fin 0 → Fin S4096x256.rank)
  dot_S4096x256_S256x64_S4096x64_1_0_0_1_n_n_wf : DotDims.WF S4096x256 S256x64 S4096x64 [1] [0] [0] [1] [] []
  dot_S4096x64_S64x1_S4096x1_1_0_0_1_n_n_wf : DotDims.WF S4096x64 S64x1 S4096x1 [1] [0] [0] [1] [] []
  dot_S4x4096x4096_S4096x64_S4x4096x64_2_0_01_1_n_n_wf : DotDims.WF S4x4096x4096 S4096x64 S4x4096x64 [2] [0] [0, 1] [1] [] []

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4x4096x4096_S4096x64_S4x4096x64_2_0_01_1_n_n : DotDims S4x4096x4096 S4096x64 S4x4096x64 where
  lhsContracting := [2]
  rhsContracting := [0]
  lhsNonContracting := [0, 1]
  rhsNonContracting := [1]
  lhsBatch := []
  rhsBatch := []
  wf := dot_S4x4096x4096_S4096x64_S4x4096x64_2_0_01_1_n_n_wf

class Facts : Prop extends Facts₀ where

variable [Facts]
-- ==== Proof.KPieces.lean ====
/-
  What one grid point's body leaves in the two output blocks, as values of the blocks it loads.

  The attention block (output 4) is written once, whole: the column softmax of the point's edge block. The aggregate block
  (output 5) is read, added to the point's partial product and written back whole; at the first column tile of a relation
  it is first overwritten with zeros, so there the addition starts from the zero block, and at every other tile from what
  the tile before left.
-/
import proofs.«163317_j45689862094922_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At the first column tile the attention block is the softmax payload of the loaded blocks. -/
theorem out_A_4 (c : Dev nD) (i : grid0.Coords) (arg2 : Memref sig .tc .vmem S1x4096x256 .f32) (harg2 : arg2.IsWhole) (arg3 : Memref sig .tc .vmem S4096x1 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x4096x256 .f32) (harg6 : arg6.IsWhole) (arg7 : Memref sig .tc .vmem S1x4096x64 .f32) (harg7 : arg7.IsWhole) (hc0 : cond0_0 i) (x0 : Vec F S1x4096x256 .f32) (x1 : Vec F S4096x1 .f32) (x2 : Vec F S1x256 .f32) (x3 : Vec F S256x64 .f32) :
    out0_A_4 c i arg2 harg2 arg3 harg3 arg4 harg4 arg5 harg5 arg6 harg6 arg7 harg7 hc0 x0 x1 x2 x3 = k0_pay3 x0 x1 x2 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero hz3]
  simp only [View.readAt_eq_ld, harg2.read_unread, harg3.read_unread, harg4.read_unread, harg5.read_unread, harg7.read_unread, View.ld_unit_zero (S := S1x4096x256) hz3, View.ld_unit_zero (S := S1x4096x64) hz3, View.ld_unit_zero (S := S4096x1) hz2, View.ld_unit_zero (S := S1x256) hz2, View.ld_unit_zero (S := S256x64) hz2]

/-- There the aggregate block is the zero block plus the tile's partial product. -/
theorem out_A_5 (c : Dev nD) (i : grid0.Coords) (arg2 : Memref sig .tc .vmem S1x4096x256 .f32) (harg2 : arg2.IsWhole) (arg3 : Memref sig .tc .vmem S4096x1 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x4096x256 .f32) (harg6 : arg6.IsWhole) (arg7 : Memref sig .tc .vmem S1x4096x64 .f32) (harg7 : arg7.IsWhole) (hc0 : cond0_0 i) (x0 : Vec F S1x4096x256 .f32) (x1 : Vec F S4096x1 .f32) (x2 : Vec F S1x256 .f32) (x3 : Vec F S256x64 .f32) :
    out0_A_5 c i arg2 harg2 arg3 harg3 arg4 harg4 arg5 harg5 arg6 harg6 arg7 harg7 hc0 x0 x1 x2 x3 = k0_pay1 (k0_pay5 x0 x1 x2) x3 k0_pay4 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x4096x64) hz3, View.readCov_unit_zero (S := S1x4096x64) _ hz3]
  simp only [View.readAt_eq_ld, harg2.read_unread, harg3.read_unread, harg4.read_unread, harg5.read_unread, harg7.read_unread, View.ld_unit_zero (S := S1x4096x256) hz3, View.ld_unit_zero (S := S1x4096x64) hz3, View.ld_unit_zero (S := S4096x1) hz2, View.ld_unit_zero (S := S1x256) hz2, View.ld_unit_zero (S := S256x64) hz2]

/-- At any other column tile the attention block is the same payload, -/
theorem out_B_4 (c : Dev nD) (i : grid0.Coords) (arg2 : Memref sig .tc .vmem S1x4096x256 .f32) (harg2 : arg2.IsWhole) (arg3 : Memref sig .tc .vmem S4096x1 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x4096x256 .f32) (harg6 : arg6.IsWhole) (arg7 : Memref sig .tc .vmem S1x4096x64 .f32) (harg7 : arg7.IsWhole) (hc0 : ¬cond0_0 i) (x0 : Vec F S1x4096x256 .f32) (x1 : Vec F S4096x1 .f32) (x2 : Vec F S1x256 .f32) (x3 : Vec F S256x64 .f32) (xo5 : Vec F S1x4096x64 .f32) :
    out0_B_4 c i arg2 harg2 arg3 harg3 arg4 harg4 arg5 harg5 arg6 harg6 arg7 harg7 hc0 x0 x1 x2 x3 xo5 = k0_pay3 x0 x1 x2 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S1x4096x256) hz3, View.ld_unit_zero (S := S1x4096x64) hz3, View.ld_unit_zero (S := S4096x1) hz2, View.ld_unit_zero (S := S1x256) hz2, View.ld_unit_zero (S := S256x64) hz2]

/-- and the aggregate block is what the tile before left plus the tile's partial product. -/
theorem out_B_5 (c : Dev nD) (i : grid0.Coords) (arg2 : Memref sig .tc .vmem S1x4096x256 .f32) (harg2 : arg2.IsWhole) (arg3 : Memref sig .tc .vmem S4096x1 .f32) (harg3 : arg3.IsWhole) (arg4 : Memref sig .tc .vmem S1x256 .f32) (harg4 : arg4.IsWhole) (arg5 : Memref sig .tc .vmem S256x64 .f32) (harg5 : arg5.IsWhole) (arg6 : Memref sig .tc .vmem S1x4096x256 .f32) (harg6 : arg6.IsWhole) (arg7 : Memref sig .tc .vmem S1x4096x64 .f32) (harg7 : arg7.IsWhole) (hc0 : ¬cond0_0 i) (x0 : Vec F S1x4096x256 .f32) (x1 : Vec F S4096x1 .f32) (x2 : Vec F S1x256 .f32) (x3 : Vec F S256x64 .f32) (xo5 : Vec F S1x4096x64 .f32) :
    out0_B_5 c i arg2 harg2 arg3 harg3 arg4 harg4 arg5 harg5 arg6 harg6 arg7 harg7 hc0 x0 x1 x2 x3 xo5 = k0_pay1 (k0_pay5 x0 x1 x2) x3 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  sl_unfold_words
  rw [View.canon_unit_zero hz3]
  simp only [View.readAt_eq_ld, harg2.read_unread, harg3.read_unread, harg4.read_unread, harg5.read_unread, harg7.read_unread, View.ld_unit_zero (S := S1x4096x256) hz3, View.ld_unit_zero (S := S1x4096x64) hz3, View.ld_unit_zero (S := S4096x1) hz2, View.ld_unit_zero (S := S1x256) hz2, View.ld_unit_zero (S := S256x64) hz2]

end Cert.KernelIdeal.Pieces

end
-- ==== Proof.Spec.lean ====
/-
  The function both programs compute, over the extended reals, index by index.

  From the projected features `wh` ([4096, 64]) and the two attention logits `wh1`, `wh2` ([4096, 1] each) the score of the
  pair (i, j) is the leaky rectifier of `wh1 i + wh2 j`; on relation r it is multiplied by the edge weight `edge (r, i, j)`
  where that weight is positive and replaced by a large negative fill elsewhere. Each COLUMN j of relation r (i running over
  the 4096 source nodes) is normalised by a softmax: the column's maximum is subtracted, the exponentials are divided by their
  sum. The attention `att r i j` so obtained is the second result; the first contracts it with the projected features over j
  (`agg r i f`), lays the four relations side by side ([4096, 4·64]) and applies the exponential linear unit.

  The float literals stay as their binary words read at the ideal values: the same word stands on both sides, so none is
  ever evaluated here.
-/
import Idealize.ShloMosaic.PureOps.Ideal
import Idealize.ShloMosaic.Lib.ValueIdx

noncomputable section

namespace Cert.Spec

open Idealize.ShloMosaic Idealize.ShloMosaic.ValueIdx

/-- The literals: 0, the rectifier's slope 0.2, the fill -9e15, the maximum's start -inf, and 1. -/
def zero : EReal := Ideal.ofBits .f32 0x00000000#32
def slope : EReal := Ideal.ofBits .f32 0x3E4CCCCD#32
def fill : EReal := Ideal.ofBits .f32 0xD9FFCB9E#32
def negInf : EReal := Ideal.ofBits .f32 0xFF800000#32
def one : EReal := Ideal.ofBits .f32 0x3F800000#32

/-- The leaky rectifier: `s` where `s` is positive, `slope · s` elsewhere. -/
def lrelu (s : EReal) : EReal := Scalar.select (Ideal.cmp .ogt s zero) s (slope * s)

/-- A pair's masked score: the rectified logit times the edge weight where the weight is positive, the fill elsewhere. -/
def masked (s e : EReal) : EReal := Scalar.select (Ideal.cmp .ogt e zero) (lrelu s * e) fill

/-- A column's maximum, folded from -inf. -/
def cmax (col : Fin 4096 → EReal) : EReal := (Finset.univ : Finset (Fin 4096)).fold max negInf col

/-- A column's shifted exponentials, -/
def cexp (col : Fin 4096 → EReal) (i : Fin 4096) : EReal := Ideal.exp (col i - cmax col)

/-- and its softmax. -/
def csoft (col : Fin 4096 → EReal) (i : Fin 4096) : EReal := Ideal.div (cexp col i) (∑ k : Fin 4096, cexp col k)

/-- The exponential linear unit: `x` where positive, `exp x - 1` elsewhere. -/
def elu (x : EReal) : EReal := Scalar.select (Ideal.cmp .ogt x zero) x (Ideal.exp x - one)

abbrev SEdge : Shape := ⟨3, ![4, 4096, 4096]⟩
abbrev SWh : Shape := ⟨2, ![4096, 64]⟩
abbrev SCol : Shape := ⟨2, ![4096, 1]⟩
abbrev SAgg : Shape := ⟨3, ![4, 4096, 64]⟩

/-- Column j of relation r: the masked scores of the pairs (k, j), k over the source nodes. -/
def column (edge : SEdge.Idx → EReal) (wh1 wh2 : SCol.Idx → EReal) (r : Fin 4) (j : Fin 4096) : Fin 4096 → EReal :=
  fun k => masked (wh1 (ix2 k (0 : Fin 1)) + wh2 (ix2 j (0 : Fin 1))) (edge (ix3 r k j))

/-- The attention of the pair (i, j) on relation r. -/
def att (edge : SEdge.Idx → EReal) (wh1 wh2 : SCol.Idx → EReal) (r : Fin 4) (i j : Fin 4096) : EReal :=
  csoft (column edge wh1 wh2 r j) i

/-- The aggregated features of node i on relation r. -/
def agg (edge : SEdge.Idx → EReal) (wh : SWh.Idx → EReal) (wh1 wh2 : SCol.Idx → EReal) (r : Fin 4) (i : Fin 4096) (f : Fin 64) : EReal :=
  ∑ j : Fin 4096, att edge wh1 wh2 r i j * wh (ix2 j f)

/-- The attention as an array, -/
def attArr (edge : SEdge.Idx → EReal) (wh1 wh2 : SCol.Idx → EReal) : SEdge.Idx → EReal :=
  fun y => att edge wh1 wh2 (y 0) (y 1) (y 2)

/-- and the aggregate as an array. -/
def aggArr (edge : SEdge.Idx → EReal) (wh : SWh.Idx → EReal) (wh1 wh2 : SCol.Idx → EReal) : SAgg.Idx → EReal :=
  fun y => agg edge wh wh1 wh2 (y 0) (y 1) (y 2)

theorem attArr_apply (edge : SEdge.Idx → EReal) (wh1 wh2 : SCol.Idx → EReal) (r : Fin 4) (i j : Fin 4096) :
    attArr edge wh1 wh2 (ix3 r i j) = att edge wh1 wh2 r i j := rfl

theorem aggArr_apply (edge : SEdge.Idx → EReal) (wh : SWh.Idx → EReal) (wh1 wh2 : SCol.Idx → EReal) (r : Fin 4) (i : Fin 4096) (f : Fin 64) :
    aggArr edge wh wh1 wh2 (ix3 r i f) = agg edge wh wh1 wh2 r i f := rfl

/-- The first result: the relations' aggregates laid side by side (the transpose to [4096, 4, 64] and the cast to
    [4096, 256], both kept as the layout operations they are) under the exponential linear unit. -/
def outArr (edge : SEdge.Idx → EReal) (wh : SWh.Idx → EReal) (wh1 wh2 : SCol.Idx → EReal)
    (ht : SAgg.Transposes [1, 0, 2] ⟨3, ![4096, 4, 64]⟩) (hs : (⟨3, ![4096, 4, 64]⟩ : Shape).ShapeCasts ⟨2, ![4096, 256]⟩) :
    (⟨2, ![4096, 256]⟩ : Shape).Idx → EReal :=
  fun y => elu (shapeCast ⟨2, ![4096, 256]⟩ (transpose ⟨3, ![4096, 4, 64]⟩ [1, 0, 2] (aggArr edge wh wh1 wh2) ht) hs y)

end Cert.Spec

end
-- ==== Proof.LibKeepdims.lean ====
/-
  Column ("keepdims") layouts read at an index: a vector viewed as a one-column matrix, and a one-column matrix
  broadcast along its unit axis. A row reduction kept as a column (`sum(-1, keepdims=True)`) is the first followed,
  where it meets the matrix it was reduced from, by the second.
-/
import Idealize.ShloMosaic.Lib.ValueIdx
import Idealize.ShloMosaic.Lib.Pipeline.Value

namespace Cert.Lib

open Idealize.ShloMosaic Idealize.ShloMosaic.ValueIdx

variable {α : Type}

/-- An `[a]` vector cast to the column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(p, q)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KPay.lean ====
/-
  The body's arithmetic read at an index, at the ideal values.

  The softmax payload: from the point's blocks — the edge weights [1, 4096, 256], the column of source logits [4096, 1] and
  the row of target logits [1, 256] — the masked score of (k, c) is computed pointwise; each of the 256 columns is then
  reduced over its 4096 rows (a maximum from -inf, a sum of the shifted exponentials), the reduced rows are broadcast back
  and the quotient taken. Read at (i, c) this is the specification's column softmax of column c, at row i.

  The aggregate payload: the block held so far plus the product of the attention block (rounded to bf16 on the way in,
  which is the identity here) with the 256 rows of projected features: at (i, f) a sum over the tile's 256 columns.
-/
import proofs.«163317_j45689862094922_1_alg».proof.Proof.Gen.KernelIdeal.Skeleton
import proofs.«163317_j45689862094922_1_alg».proof.Proof.Spec
import proofs.«163317_j45689862094922_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Pay

open Cert.KernelIdeal Cert.KernelIdeal.Facts₀

/-- The masked scores of a point's blocks. -/
def scores (x0 : Vec Ideal S1x4096x256 .f32) (x1 : Vec Ideal S4096x1 .f32) (x2 : Vec Ideal S1x256 .f32) : FVec Ideal S4096x256 .f32 :=
  have v1 : FVec Ideal S4096x256 .f32 := shapeCast S4096x256 x0 shapeCasts_S1x4096x256_S4096x256
  have v3 : FVec Ideal S4096x1 .f32 := shapeCast S4096x1 x1 shapeCasts_S4096x1_S4096x1
  have v5 : FVec Ideal S1x256 .f32 := shapeCast S1x256 x2 shapeCasts_S1x256_S1x256
  have v6 : FVec Ideal S4096x256 .f32 := broadcastTo S4096x256 v3 broadcasts_S4096x1_S4096x256
  have v7 : FVec Ideal S4096x256 .f32 := broadcastTo S4096x256 v5 broadcasts_S1x256_S4096x256
  have v8 : FVec Ideal S4096x256 .f32 := addf v6 v7
  have v9 : FVec Ideal S4096x256 .f32 := broadcast S4096x256 (Scalar.ofBits .f32 0x00000000#32)
  have v10 : IVec S4096x256 1 := cmpf .ogt v8 v9
  have v11 : FVec Ideal S4096x256 .f32 := broadcast S4096x256 (Scalar.ofBits .f32 0x3E4CCCCD#32)
  have v12 : FVec Ideal S4096x256 .f32 := mulf v11 v8
  have v13 : FVec Ideal S4096x256 .f32 := select v10 v8 v12
  have v14 : FVec Ideal S4096x256 .f32 := mulf v13 v1
  have v15 : FVec Ideal S4096x256 .f32 := broadcast S4096x256 (Scalar.ofBits .f32 0x00000000#32)
  have v16 : IVec S4096x256 1 := cmpf .ogt v1 v15
  have v17 : FVec Ideal S4096x256 .f32 := broadcast S4096x256 (Scalar.ofBits .f32 0xD9FFCB9E#32)
  select v16 v14 v17

/-- The column softmax of a [4096, 256] block, as the body computes it. -/
def softCols (v18 : FVec Ideal S4096x256 .f32) : FVec Ideal S4096x256 .f32 :=
  have v19 : FVec Ideal S256 .f32 := multiReduction .maximumf [0] S256 v18 0xFF800000#32 reduces_S4096x256_S256 (.inl rfl) rfl
  have v20 : FVec Ideal S1x256 .f32 := shapeCast S1x256 v19 shapeCasts_S256_S1x256
  have v21 : FVec Ideal S4096x256 .f32 := broadcastTo S4096x256 v20 broadcasts_S1x256_S4096x256
  have v22 : FVec Ideal S4096x256 .f32 := subf v18 v21
  have v23 : FVec Ideal S4096x256 .f32 := exp v22
  have v24 : FVec Ideal S256 .f32 := multiReduction .add [0] S256 v23 0x00000000#32 reduces_S4096x256_S256 (.inl rfl) rfl
  have v25 : FVec Ideal S1x256 .f32 := shapeCast S1x256 v24 shapeCasts_S256_S1x256
  have v26 : FVec Ideal S4096x256 .f32 := broadcastTo S4096x256 v25 broadcasts_S1x256_S4096x256
  divf v23 v26

/-- The softmax payload is the column softmax of the masked scores. -/
theorem pay2_eq (x0 : Vec Ideal S1x4096x256 .f32) (x1 : Vec Ideal S4096x1 .f32) (x2 : Vec Ideal S1x256 .f32) :
    Gen.k0_pay2 (F := Ideal) x0 x1 x2 = softCols (scores x0 x1 x2) := rfl

/-- The masked score of the block's pair (k, c). -/
theorem scores_apply (x0 : Vec Ideal S1x4096x256 .f32) (x1 : Vec Ideal S4096x1 .f32) (x2 : Vec Ideal S1x256 .f32) (k : Fin 4096) (c : Fin 256) :
    scores x0 x1 x2 (ix2 k c)
      = Cert.Spec.masked (x1 (ix2 k (0 : Fin 1)) + x2 (ix2 (0 : Fin 1) c)) (x0 (ix3 (0 : Fin 1) k c)) := by
  have e1 : shapeCast S4096x256 x0 shapeCasts_S1x4096x256_S4096x256 (ix2 k c) = x0 (ix3 (0 : Fin 1) k c) :=
    shapeCast_1ab_ab_apply x0 shapeCasts_S1x4096x256_S4096x256 k c
  have e6 : broadcastTo S4096x256 (shapeCast S4096x1 x1 shapeCasts_S4096x1_S4096x1) broadcasts_S4096x1_S4096x256 (ix2 k c) = x1 (ix2 k (0 : Fin 1)) := by
    rw [shapeCast_self]
    exact Cert.Lib.broadcastTo_a1_ab_apply x1 broadcasts_S4096x1_S4096x256 k c
  have e7 : broadcastTo S4096x256 (shapeCast S1x256 x2 shapeCasts_S1x256_S1x256) broadcasts_S1x256_S4096x256 (ix2 k c) = x2 (ix2 (0 : Fin 1) c) := by
    rw [shapeCast_self]
    exact broadcastTo_1b_ab_apply x2 broadcasts_S1x256_S4096x256 k c
  show Scalar.select (Ideal.cmp .ogt (shapeCast S4096x256 x0 shapeCasts_S1x4096x256_S4096x256 (ix2 k c)) (Ideal.ofBits .f32 0x00000000#32))
      (Scalar.select (Ideal.cmp .ogt (broadcastTo S4096x256 (shapeCast S4096x1 x1 shapeCasts_S4096x1_S4096x1) broadcasts_S4096x1_S4096x256 (ix2 k c)
            + broadcastTo S4096x256 (shapeCast S1x256 x2 shapeCasts_S1x256_S1x256) broadcasts_S1x256_S4096x256 (ix2 k c)) (Ideal.ofBits .f32 0x00000000#32))
          (broadcastTo S4096x256 (shapeCast S4096x1 x1 shapeCasts_S4096x1_S4096x1) broadcasts_S4096x1_S4096x256 (ix2 k c)
            + broadcastTo S4096x256 (shapeCast S1x256 x2 shapeCasts_S1x256_S1x256) broadcasts_S1x256_S4096x256 (ix2 k c))
          (Ideal.ofBits .f32 0x3E4CCCCD#32 * (broadcastTo S4096x256 (shapeCast S4096x1 x1 shapeCasts_S4096x1_S4096x1) broadcasts_S4096x1_S4096x256 (ix2 k c)
            + broadcastTo S4096x256 (shapeCast S1x256 x2 shapeCasts_S1x256_S1x256) broadcasts_S1x256_S4096x256 (ix2 k c)))
        * shapeCast S4096x256 x0 shapeCasts_S1x4096x256_S4096x256 (ix2 k c))
      (Ideal.ofBits .f32 0xD9FFCB9E#32) = _
  rw [e1, e6, e7]
  rfl

/-- The row the reduction over axis 0 inserts: (k, c). -/
theorem lift_eq (c : Fin 256) (k : Fin 4096) :
    reduces_S4096x256_S256.lift (ix1 c) k = ix2 k c := by
  funext a
  apply Fin.ext
  match a with
  | ⟨0, _⟩ => rfl
  | ⟨1, _⟩ => rfl

/-- The body's column softmax read at (i, c): the specification's softmax of column c at row i. -/
theorem softCols_apply (v : FVec Ideal S4096x256 .f32) (i : Fin 4096) (c : Fin 256) :
    softCols v (ix2 i c) = Cert.Spec.csoft (fun k => v (ix2 k c)) i := by
  have hmax : ∀ p : Fin 4096, broadcastTo S4096x256 (shapeCast S1x256 (multiReduction .maximumf [0] S256 v 0xFF800000#32 reduces_S4096x256_S256 (.inl rfl) rfl) shapeCasts_S256_S1x256) broadcasts_S1x256_S4096x256 (ix2 p c)
      = Cert.Spec.cmax (fun k => v (ix2 k c)) := fun p => by
    refine (broadcastTo_1b_ab_apply _ broadcasts_S1x256_S4096x256 p c).trans ?_
    refine (shapeCast_a_1a_apply _ shapeCasts_S256_S1x256 (0 : Fin 1) c).trans ?_
    refine (Ideal.multiReduction_maximumf_single v 0xFF800000#32 reduces_S4096x256_S256 (.inl rfl) rfl (ix1 c)).trans ?_
    show (Finset.univ : Finset (Fin 4096)).fold max (Ideal.ofBits .f32 0xFF800000#32) (fun k => v (reduces_S4096x256_S256.lift (ix1 c) k)) = _
    show _ = (Finset.univ : Finset (Fin 4096)).fold max (Ideal.ofBits .f32 0xFF800000#32) (fun k => v (ix2 k c))
    exact congrArg (fun g => (Finset.univ : Finset (Fin 4096)).fold max (Ideal.ofBits .f32 0xFF800000#32) g)
      (funext fun k => congrArg v (lift_eq c k))
  have hexp : ∀ p : Fin 4096, exp (subf v (broadcastTo S4096x256 (shapeCast S1x256 (multiReduction .maximumf [0] S256 v 0xFF800000#32 reduces_S4096x256_S256 (.inl rfl) rfl) shapeCasts_S256_S1x256) broadcasts_S1x256_S4096x256)) (ix2 p c)
      = Cert.Spec.cexp (fun k => v (ix2 k c)) p := fun p => by
    show Ideal.exp (v (ix2 p c) - _) = _
    rw [hmax p]
    rfl
  show Ideal.div (exp (subf v _) (ix2 i c)) (broadcastTo S4096x256 (shapeCast S1x256 (multiReduction .add [0] S256 (exp (subf v _)) 0x00000000#32 reduces_S4096x256_S256 (.inl rfl) rfl) shapeCasts_S256_S1x256) broadcasts_S1x256_S4096x256 (ix2 i c)) = _
  rw [hexp i]
  refine congrArg (Ideal.div _) ?_
  refine (broadcastTo_1b_ab_apply _ broadcasts_S1x256_S4096x256 i c).trans ?_
  refine (shapeCast_a_1a_apply _ shapeCasts_S256_S1x256 (0 : Fin 1) c).trans ?_
  refine (Ideal.multiReduction_add_single _ 0x00000000#32 reduces_S4096x256_S256 (.inl rfl) rfl (ix1 c)).trans ?_
  show ∑ k : Fin 4096, exp (subf v _) (reduces_S4096x256_S256.lift (ix1 c) k) = _
  exact Finset.sum_congr rfl fun k _ => (congrArg _ (lift_eq c k)).trans (hexp k)

/-- The softmax payload at (i, c): the specification's softmax, over the point's blocks, of column c at row i. -/
theorem pay2_apply (x0 : Vec Ideal S1x4096x256 .f32) (x1 : Vec Ideal S4096x1 .f32) (x2 : Vec Ideal S1x256 .f32) (i : Fin 4096) (c : Fin 256) :
    Gen.k0_pay2 (F := Ideal) x0 x1 x2 (ix2 i c)
      = Cert.Spec.csoft (fun k => Cert.Spec.masked (x1 (ix2 k (0 : Fin 1)) + x2 (ix2 (0 : Fin 1) c)) (x0 (ix3 (0 : Fin 1) k c))) i := by
  rw [pay2_eq, softCols_apply]
  simp only [scores_apply]

/-- The same, as the block the body stores ([1, 4096, 256]) -/
theorem pay3_apply (x0 : Vec Ideal S1x4096x256 .f32) (x1 : Vec Ideal S4096x1 .f32) (x2 : Vec Ideal S1x256 .f32) (u : Fin 1) (i : Fin 4096) (c : Fin 256) :
    Gen.k0_pay3 (F := Ideal) x0 x1 x2 (ix3 u i c)
      = Cert.Spec.csoft (fun k => Cert.Spec.masked (x1 (ix2 k (0 : Fin 1)) + x2 (ix2 (0 : Fin 1) c)) (x0 (ix3 (0 : Fin 1) k c))) i :=
  (shapeCast_ab_1ab_apply (Gen.k0_pay2 (F := Ideal) x0 x1 x2) shapeCasts_S4096x256_S1x4096x256 u i c).trans (pay2_apply x0 x1 x2 i c)

/-- and as the left factor of the product (the rounding to bf16 is the identity at the ideal values). -/
theorem pay5_apply (x0 : Vec Ideal S1x4096x256 .f32) (x1 : Vec Ideal S4096x1 .f32) (x2 : Vec Ideal S1x256 .f32) (i : Fin 4096) (c : Fin 256) :
    Gen.k0_pay5 (F := Ideal) x0 x1 x2 (ix2 i c)
      = Cert.Spec.csoft (fun k => Cert.Spec.masked (x1 (ix2 k (0 : Fin 1)) + x2 (ix2 (0 : Fin 1) c)) (x0 (ix3 (0 : Fin 1) k c))) i :=
  pay2_apply x0 x1 x2 i c

/-- The zero block is zero everywhere. -/
theorem pay4_apply (u : Fin 1) (i : Fin 4096) (f : Fin 64) : Gen.k0_pay4 (F := Ideal) (ix3 u i f) = 0 :=
  (shapeCast_ab_1ab_apply (broadcast S4096x64 (Scalar.ofBits (F := Ideal) .f32 0x00000000#32)) shapeCasts_S4096x64_S1x4096x64 u i f).trans Ideal.ofBits_zero_f32

/-! ## The partial product -/

theorem lhs0 (i : S4096x64.Idx) (q : dot_S4096x256_S256x64_S4096x64_1_0_0_1_n_n.contr.Idx) : (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs1 (i : S4096x64.Idx) (q : dot_S4096x256_S256x64_S4096x64_1_0_0_1_n_n.contr.Idx) : (dot_S4096x256_S256x64_S4096x64_1_0_0_1_n_n.lhsIdx i q 1).val = (q ⟨0, by decide⟩).val :=
  dot_S4096x256_S256x64_S4096x64_1_0_0_1_n_n.lhsIdx_val_of_single rfl i q
theorem rhs0 (i : S4096x64.Idx) (q : dot_S4096x256_S256x64_S4096x64_1_0_0_1_n_n.contr.Idx) : (dot_S4096x256_S256x64_S4096x64_1_0_0_1_n_n.rhsIdx i q 0).val = (q ⟨0, by decide⟩).val :=
  dot_S4096x256_S256x64_S4096x64_1_0_0_1_n_n.rhsIdx_val_of_single rfl i q
theorem rhs1 (i : S4096x64.Idx) (q : dot_S4096x256_S256x64_S4096x64_1_0_0_1_n_n.contr.Idx) : (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- The product of a [4096, 256] block with a [256, 64] block into a zero accumulator, at (i, f): the sum over the 256 shared
    coordinates. -/
theorem matmul_zero_apply (a : FVec Ideal S4096x256 .bf16) (b : FVec Ideal S256x64 .bf16) (i : Fin 4096) (f : Fin 64) :
    matmul dot_S4096x256_S256x64_S4096x64_1_0_0_1_n_n none a b (constant S4096x64 .f32 0x00000000#32) (ix2 i f) = ∑ c : Fin 256, a (ix2 i c) * b (ix2 c f) := by
  refine (Ideal.matmul_constant_zero_apply dot_S4096x256_S256x64_S4096x64_1_0_0_1_n_n none a b (ix2 i f)).trans ?_
  rw [← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 i f) ((contrEquiv1 dot_S4096x256_S256x64_S4096x64_1_0_0_1_n_n 256 rfl rfl).symm k) = ix2 i k := funext fun a => Fin.ext (by
    match a with
    | ⟨0, _⟩ => exact lhs0 _ _
    | ⟨1, _⟩ => exact (lhs1 _ _).trans hk)
  have er : dot_S4096x256_S256x64_S4096x64_1_0_0_1_n_n.rhsIdx (ix2 i f) ((contrEquiv1 dot_S4096x256_S256x64_S4096x64_1_0_0_1_n_n 256 rfl rfl).symm k) = ix2 k f := funext fun a => Fin.ext (by
    match a with
    | ⟨0, _⟩ => exact (rhs0 _ _).trans hk
    | ⟨1, _⟩ => exact rhs1 _ _)
  rw [el, er]

/-- The aggregate payload at (i, f): the block held so far plus the tile's partial product. -/
theorem pay1_apply (v34 : FVec Ideal S4096x256 .bf16) (v35 : Vec Ideal S256x64 .f32) (v39 : Vec Ideal S1x4096x64 .f32) (u : Fin 1) (i : Fin 4096) (f : Fin 64) :
    Gen.k0_pay1 (F := Ideal) v34 v35 v39 (ix3 u i f) = v39 (ix3 (0 : Fin 1) i f) + ∑ c : Fin 256, v34 (ix2 i c) * v35 (ix2 c f) := by
  unfold Gen.k0_pay1
  refine (shapeCast_ab_1ab_apply _ shapeCasts_S4096x64_S1x4096x64 u i f).trans ?_
  show shapeCast S4096x64 v39 shapeCasts_S1x4096x64_S4096x64 (ix2 i f)
      + matmul dot_S4096x256_S256x64_S4096x64_1_0_0_1_n_n none v34 (truncf .bf16 (shapeCast S256x64 v35 shapeCasts_S256x64_S256x64) bitsLt_bf16_f32) (constant S4096x64 .f32 0x00000000#32) (ix2 i f) = _
  rw [matmul_zero_apply, shapeCast_self]
  exact congrArg (· + _) (shapeCast_1ab_ab_apply v39 shapeCasts_S1x4096x64_S4096x64 i f)

end Cert.KernelIdeal.Pay

end
-- ==== Proof.KBlocks.lean ====
/-
  Where each window's block sits in its array, point by point.

  The grid has 4 · 16 points; point t works on relation r = t / 16 and on column tile q = t % 16 (columns 256·q … 256·q + 255).
  The edge block of point t is rows 0 … 4095 and the tile's 256 columns of relation r; the source logits are the whole
  column; the target logits are the tile's 256 entries of the row; the projected features are the tile's 256 rows. The
  attention block is written where the edge block was read, and the aggregate block is the whole [4096, 64] slab of
  relation r, the same at the 16 points of a relation.
-/
import proofs.«163317_j45689862094922_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided over the grid: relation t / 16, column tile t % 16. -/
theorem idx_facts : ∀ t : Fin cfg0.N,
    win0_0.index t (0 : Fin 3) = t.val / 16 ∧ win0_0.index t (1 : Fin 3) = 0 ∧ win0_0.index t (2 : Fin 3) = t.val % 16
    ∧ win0_1.index t (0 : Fin 2) = 0 ∧ win0_1.index t (1 : Fin 2) = 0
    ∧ win0_2.index t (0 : Fin 2) = 0 ∧ win0_2.index t (1 : Fin 2) = t.val % 16
    ∧ win0_3.index t (0 : Fin 2) = t.val % 16 ∧ win0_3.index t (1 : Fin 2) = 0
    ∧ win0_4.index t (0 : Fin 3) = t.val / 16 ∧ win0_4.index t (1 : Fin 3) = 0 ∧ win0_4.index t (2 : Fin 3) = t.val % 16
    ∧ win0_5.index t (0 : Fin 3) = t.val / 16 ∧ win0_5.index t (1 : Fin 3) = 0 ∧ win0_5.index t (2 : Fin 3) = 0 :=
  (by decide +kernel : ∀ t : Fin grid0.N, _)

/-- The edge block of point t: rows k, columns 256·(t % 16) + c of relation t / 16. -/
theorem iblk0_apply (c : Dev nD) (t : Fin cfg0.N) (x : S1x4096x256.Idx) (k : S4x4096x4096.Idx)
    (hk0 : (k 0).val = t.val / 16) (hk1 : (k 1).val = (x 1).val) (hk2 : (k 2).val = 256 * (t.val % 16) + (x 2).val) :
    (iblk m c 0 t : Vec F S1x4096x256 .f32) x = V m c main_arg1 k := by
  obtain ⟨e0, e1, e2, -⟩ := idx_facts t
  unfold iblk
  rw [View.read_apply]
  show V m c main_arg1 _ = V m c main_arg1 k
  refine congrArg (V m c main_arg1) (funext fun a => Fin.ext ?_)
  have hx0 : (x 0).val < 1 := (x 0).isLt
  match a with
  | ⟨0, _⟩ => show win0_0.index t (0 : Fin 3) * 1 + 1 * (x 0).val = (k 0).val; rw [e0, hk0]; omega
  | ⟨1, _⟩ => show win0_0.index t (1 : Fin 3) * 4096 + 1 * (x 1).val = (k 1).val; rw [e1, hk1]; omega
  | ⟨2, _⟩ => show win0_0.index t (2 : Fin 3) * 256 + 1 * (x 2).val = (k 2).val; rw [e2, hk2]; omega

/-- The source logits' block is the whole column at every point. -/
theorem iblk1_apply (c : Dev nD) (t : Fin cfg0.N) (x : S4096x1.Idx) :
    (iblk m c 1 t : Vec F S4096x1 .f32) x = V m c main_v2 x := by
  obtain ⟨-, -, -, e0, e1, -⟩ := idx_facts t
  unfold iblk
  rw [View.read_apply]
  show V m c main_v2 _ = V m c main_v2 x
  refine congrArg (V m c main_v2) (funext fun a => Fin.ext ?_)
  match a with
  | ⟨0, _⟩ => show win0_1.index t (0 : Fin 2) * 4096 + 1 * (x 0).val = (x 0).val; rw [e0]; omega
  | ⟨1, _⟩ => show win0_1.index t (1 : Fin 2) * 1 + 1 * (x 1).val = (x 1).val; rw [e1]; omega

/-- The target logits' block of point t: entries 256·(t % 16) + c of the row. -/
theorem iblk2_apply (c : Dev nD) (t : Fin cfg0.N) (x : S1x256.Idx) (k : S1x4096.Idx)
    (hk1 : (k 1).val = 256 * (t.val % 16) + (x 1).val) :
    (iblk m c 2 t : Vec F S1x256 .f32) x = V m c main_v5 k := by
  obtain ⟨-, -, -, -, -, e0, e1, -⟩ := idx_facts t
  unfold iblk
  rw [View.read_apply]
  show V m c main_v5 _ = V m c main_v5 k
  refine congrArg (V m c main_v5) (funext fun a => Fin.ext ?_)
  have hx0 : (x 0).val < 1 := (x 0).isLt
  have hk0 : (k 0).val < 1 := (k 0).isLt
  match a with
  | ⟨0, _⟩ => show win0_2.index t (0 : Fin 2) * 1 + 1 * (x 0).val = (k 0).val; rw [e0]; omega
  | ⟨1, _⟩ => show win0_2.index t (1 : Fin 2) * 256 + 1 * (x 1).val = (k 1).val; rw [e1, hk1]; omega

/-- The projected features' block of point t: rows 256·(t % 16) + c. -/
theorem iblk3_apply (c : Dev nD) (t : Fin cfg0.N) (x : S256x64.Idx) (k : S4096x64.Idx)
    (hk0 : (k 0).val = 256 * (t.val % 16) + (x 0).val) (hk1 : (k 1).val = (x 1).val) :
    (iblk m c 3 t : Vec F S256x64 .f32) x = V m c main_v0 k := by
  obtain ⟨-, -, -, -, -, -, -, e0, e1, -⟩ := idx_facts t
  unfold iblk
  rw [View.read_apply]
  show V m c main_v0 _ = V m c main_v0 k
  refine congrArg (V m c main_v0) (funext fun a => Fin.ext ?_)
  match a with
  | ⟨0, _⟩ => show win0_3.index t (0 : Fin 2) * 256 + 1 * (x 0).val = (k 0).val; rw [e0, hk0]; omega
  | ⟨1, _⟩ => show win0_3.index t (1 : Fin 2) * 64 + 1 * (x 1).val = (k 1).val; rw [e1, hk1]; omega

end Cert.KernelIdeal.Blocks

end
-- ==== Proof.KHost.lean ====
/-
  What the host computes before the kernel is launched: the projected features `wh = h · W` and the two logit columns
  `wh1 = wh · a[0:64]`, `wh2 = wh · a[64:128]`, the second handed to the kernel transposed to a row. These three products
  are never opened: the reference computes the very same ones.
-/
import proofs.«163317_j45689862094922_1_alg».proof.Proof.Gen.KernelIdeal.Frame
import Idealize.ShloMosaic.Lib.StableHlo.Run

set_option maxRecDepth 16384

noncomputable section

open Idealize.ShloMosaic Idealize.ShloMosaic.TcCoe Idealize.SL.Sem

namespace Cert.KernelIdeal.HostPre

open Cert.KernelIdeal Cert.KernelIdeal.Facts₀

variable {F : FTy → Type} [FloatOps F]
variable (m : (ℓ : Loc nD τ sig) → Buf (Elt F) ℓ)

/-- The projected features, [4096, 64]. -/
def wh (c : Dev nD) : (⟨S4096x64, .f32⟩ : BufTy).Contents (Elt F) :=
  Host.dotGeneral dot_S4096x256_S256x64_S4096x64_1_0_0_1_n_n none (m ((c : Thread nD τ).loc main_arg0)) (m ((c : Thread nD τ).loc main_arg2))

/-- The source logits, [4096, 1]. -/
def wh1 (c : Dev nD) : (⟨S4096x1, .f32⟩ : BufTy).Contents (Elt F) :=
  Host.dotGeneral dot_S4096x64_S64x1_S4096x1_1_0_0_1_n_n none (wh m c) (extractStridedSlice S64x1 ![0, 0] (m ((c : Thread nD τ).loc main_arg3)) slices_S128x1_S64x1_0_0)

/-- The target logits, [4096, 1]. -/
def wh2 (c : Dev nD) : (⟨S4096x1, .f32⟩ : BufTy).Contents (Elt F) :=
  Host.dotGeneral dot_S4096x64_S64x1_S4096x1_1_0_0_1_n_n none (wh m c) (extractStridedSlice S64x1 ![64, 0] (m ((c : Thread nD τ).loc main_arg3)) slices_S128x1_S64x1_64_0)

theorem V_v0 (c : Dev nD) : Gen.V m c main_v0 = wh m c := by
  show StableHlo.after Gen.hostOps0 (fun b => m (c, b)) (Proc.devRef .tc main_v0) = _
  after_results
  rfl

theorem V_v2 (c : Dev nD) : Gen.V m c main_v2 = wh1 m c := by
  show StableHlo.after Gen.hostOps0 (fun b => m (c, b)) (Proc.devRef .tc main_v2) = _
  after_results
  rfl

theorem V_v5 (c : Dev nD) : Gen.V m c main_v5 = transpose S1x4096 [1, 0] (wh2 m c) transposes_S4096x1_S1x4096_1_0 := by
  show StableHlo.after Gen.hostOps0 (fun b => m (c, b)) (Proc.devRef .tc main_v5) = _
  after_results
  rfl

end Cert.KernelIdeal.HostPre

end
-- ==== Proof.LibBlockedSum.lean ====
/-
  Sums taken block by block.

  A sum over `B * K` consecutive indices is the sum over the `B` blocks of the sums inside each block of `K`
  (`sum_blocks`; the index of position `k` of block `b` is `k + K * b`), and a running total that starts as
  `0 + g 0` and adds `g (n + 1)` at step `n + 1` holds, after step `n`, the sum of `g 0, …, g n` (`running_total`).
  Together (`blocked_total`): a total accumulated one block at a time, from zero, is the whole sum. Everything is
  stated in a commutative additive monoid, so it holds on the extended reals, where no finiteness is needed:
  only commutativity, associativity and `0 + x = x` are used.
-/
import Mathlib.Algebra.BigOperators.Fin
import Mathlib.Algebra.BigOperators.Intervals
import Mathlib.Logic.Equiv.Fin.Basic

namespace Cert.LibBlockedSum

open Finset

variable {M : Type*} [AddCommMonoid M]

/-- The index, among `B * K` consecutive ones, of position `k` inside block `b`: its value is `k + K * b`. -/
abbrev slot (B K : ℕ) (b : Fin B) (k : Fin K) : Fin (B * K) := finProdFinEquiv (b, k)

theorem slot_val (B K : ℕ) (b : Fin B) (k : Fin K) : (slot B K b k).val = k.val + K * b.val := rfl

/-- A sum over `B * K` indices, regrouped as `B` blocks of `K`. -/
theorem sum_blocks (B K : ℕ) (f : Fin (B * K) → M) :
    ∑ i, f i = ∑ b : Fin B, ∑ k : Fin K, f (slot B K b k) := by
  rw [← Equiv.sum_comp (finProdFinEquiv (m := B) (n := K)) f, Fintype.sum_prod_type]

/-- A running total that starts as `0 + g 0` and adds `g (n + 1)` at step `n + 1` is, after step `n`, the sum of
    `g 0, …, g n`. -/
theorem running_total (g a : ℕ → M) (h0 : a 0 = 0 + g 0) (hs : ∀ n, a (n + 1) = a n + g (n + 1)) (n : ℕ) :
    a n = ∑ i ∈ range (n + 1), g i := by
  induction n with
  | zero => rw [h0, zero_add, sum_range_one]
  | succ n ih => rw [hs, ih, sum_range_succ _ (n + 1)]

/-- The same, for steps counted by `Fin B`: after the last of `B` steps the running total is the sum of all `B` terms. -/
theorem running_total_fin (B : ℕ) (g : Fin (B + 1) → M) (a : ℕ → M)
    (h0 : a 0 = 0 + g 0) (hs : ∀ n (h : n + 1 < B + 1), a (n + 1) = a n + g ⟨n + 1, h⟩) :
    a B = ∑ b, g b := by
  have key : ∀ n (h : n < B + 1), a n = ∑ i : Fin (n + 1), g ⟨i.val, lt_of_lt_of_le i.isLt h⟩ := by
    intro n
    induction n with
    | zero => intro h; rw [h0, zero_add, Fin.sum_univ_one]; rfl
    | succ n ih =>
      intro h
      rw [hs n h, ih (Nat.lt_of_succ_lt h), Fin.sum_univ_castSucc (n := n + 1)]
      rfl
  rw [key B (Nat.lt_succ_self B)]

/-- A total accumulated one block at a time from zero is the whole sum: if the running total starts as `0` plus the
    first block's sum and each later step adds that block's sum, then after the last of `B + 1` blocks it is the sum
    over all `(B + 1) * K` indices. -/
theorem blocked_total (B K : ℕ) (f : Fin ((B + 1) * K) → M) (a : ℕ → M)
    (h0 : a 0 = 0 + ∑ k : Fin K, f (slot (B + 1) K 0 k))
    (hs : ∀ n (h : n + 1 < B + 1), a (n + 1) = a n + ∑ k : Fin K, f (slot (B + 1) K ⟨n + 1, h⟩ k)) :
    a B = ∑ i, f i := by
  rw [sum_blocks (B + 1) K f]
  exact running_total_fin B (fun b => ∑ k : Fin K, f (slot (B + 1) K b k)) a h0 hs

end Cert.LibBlockedSum
-- ==== Proof.KAcc.lean ====
/-
  What the two output blocks hold after each grid point.

  The attention block of point t is the column softmax of the point's masked scores: at (i, c) the attention of row i on
  column 256·(t % 16) + c of relation t / 16. The aggregate block is a running total over the column tiles of a relation:
  zero plus the first tile's partial product at the first tile, and the previous total plus the tile's partial product at
  every other one; after tile q it is the sum of the partial products of tiles 0 … q.
-/
import proofs.«163317_j45689862094922_1_alg».proof.Proof.KPieces
import proofs.«163317_j45689862094922_1_alg».proof.Proof.KPay
import proofs.«163317_j45689862094922_1_alg».proof.Proof.KBlocks
import proofs.«163317_j45689862094922_1_alg».proof.Proof.KHost
import proofs.«163317_j45689862094922_1_alg».proof.Proof.Spec
import proofs.«163317_j45689862094922_1_alg».proof.Proof.LibBlockedSum
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen

section AnyValues

variable {F : FTy → Type} [FloatOps F]
variable (m : (ℓ : Loc nD τ sig) → Buf (Elt F) ℓ)

/-- The four input blocks of point t, at their literal shapes. -/
def b0 (c : Dev nD) (t : Fin cfg0.N) : Vec F S1x4096x256 .f32 := iblk m c 0 t
def b1 (c : Dev nD) (t : Fin cfg0.N) : Vec F S4096x1 .f32 := iblk m c 1 t
def b2 (c : Dev nD) (t : Fin cfg0.N) : Vec F S1x256 .f32 := iblk m c 2 t
def b3 (c : Dev nD) (t : Fin cfg0.N) : Vec F S256x64 .f32 := iblk m c 3 t

/-- The attention block after any point is the softmax payload of the point's blocks. -/
theorem outs_1 (c : Dev nD) (t : Fin cfg0.N) :
    (outsAt0 m c t.val t.isLt).1 = k0_pay3 (b0 m c t) (b1 m c t) (b2 m c t) := by
  by_cases h0 : t.val % 16 = 0
  · rw [outsAt0_A m c t h0]
    dsimp only
    exact Pieces.out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)
  · rw [outsAt0_B m c t h0]
    dsimp only
    exact Pieces.out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) _

/-- At the first column tile of a relation the aggregate block is the zero block plus the partial product, -/
theorem outs_A_2 (c : Dev nD) (t : Fin cfg0.N) (h0 : t.val % 16 = 0) :
    (outsAt0 m c t.val t.isLt).2 = k0_pay1 (k0_pay5 (b0 m c t) (b1 m c t) (b2 m c t)) (b3 m c t) k0_pay4 := by
  rw [outsAt0_A m c t h0]
  dsimp only
  exact Pieces.out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)

/-- and at every other tile what the tile before left plus the partial product. -/
theorem outs_B_2 (c : Dev nD) (t : Fin cfg0.N) (h0 : ¬t.val % 16 = 0) :
    (outsAt0 m c t.val t.isLt).2
      = k0_pay1 (k0_pay5 (b0 m c t) (b1 m c t) (b2 m c t)) (b3 m c t) (outsAt0 m c (t.val - 1) (Nat.lt_of_le_of_lt (Nat.sub_le _ _) t.isLt)).2 := by
  rw [outsAt0_B m c t h0]
  dsimp only
  exact Pieces.out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t) _

end AnyValues

section Reads

variable {F : FTy → Type} [FloatOps F]
variable (m : (ℓ : Loc nD τ sig) → Buf (Elt F) ℓ)

open HostPre

/-- Point t's relation, -/
def rel (t : Fin cfg0.N) : Fin 4 := ⟨t.val / 16, by have := t.isLt; have h : cfg0.N = 64 := N_0; omega⟩

/-- and the column its tile's entry c is. -/
def colOf (t : Fin cfg0.N) (cc : Fin 256) : Fin 4096 := ⟨256 * (t.val % 16) + cc.val, by have := cc.isLt; omega⟩

/-- The edge block of point t reads the edge weights of its relation at the tile's columns, -/
theorem b0_apply (c : Dev nD) (t : Fin cfg0.N) (k : Fin 4096) (cc : Fin 256) :
    b0 m c t (ix3 (0 : Fin 1) k cc) = m ((c : Thread nD τ).loc main_arg1) (ix3 (rel t) k (colOf t cc)) :=
  (Blocks.iblk0_apply m c t (ix3 (0 : Fin 1) k cc) (ix3 (rel t) k (colOf t cc)) rfl rfl rfl).trans (congrFun (V_main_arg1 m c) _)

/-- the source logits' block the whole column, -/
theorem b1_apply (c : Dev nD) (t : Fin cfg0.N) (k : Fin 4096) :
    b1 m c t (ix2 k (0 : Fin 1)) = wh1 m c (ix2 k (0 : Fin 1)) :=
  (Blocks.iblk1_apply m c t (ix2 k (0 : Fin 1))).trans (congrFun (V_v2 m c) _)

/-- the target logits' block the tile's entries of the (transposed) column, -/
theorem b2_apply (c : Dev nD) (t : Fin cfg0.N) (cc : Fin 256) :
    b2 m c t (ix2 (0 : Fin 1) cc) = wh2 m c (ix2 (colOf t cc) (0 : Fin 1)) :=
  ((Blocks.iblk2_apply m c t (ix2 (0 : Fin 1) cc) (ix2 (0 : Fin 1) (colOf t cc)) rfl).trans (congrFun (V_v5 m c) _)).trans
    (transpose_ix2_apply (wh2 m c) _ (0 : Fin 1) (colOf t cc))

/-- and the projected features' block the tile's rows. -/
theorem b3_apply (c : Dev nD) (t : Fin cfg0.N) (cc : Fin 256) (f : Fin 64) :
    b3 m c t (ix2 cc f) = wh m c (ix2 (colOf t cc) f) :=
  (Blocks.iblk3_apply m c t (ix2 cc f) (ix2 (colOf t cc) f) rfl rfl).trans (congrFun (V_v0 m c) _)

end Reads

section IdealValues

variable (m : (ℓ : Loc nD τ sig) → Buf (Elt Ideal) ℓ)

open HostPre

/-- The masked score of the block's pair (k, c) is the specification's, of row k and the tile's column c. -/
theorem col_eq (c : Dev nD) (t : Fin cfg0.N) (cc : Fin 256) (k : Fin 4096) :
    Cert.Spec.masked (b1 m c t (ix2 k (0 : Fin 1)) + b2 m c t (ix2 (0 : Fin 1) cc)) (b0 m c t (ix3 (0 : Fin 1) k cc))
      = Cert.Spec.column (m ((c : Thread nD τ).loc main_arg1)) (wh1 m c) (wh2 m c) (rel t) (colOf t cc) k := by
  rw [b1_apply, b2_apply, b0_apply]
  rfl

/-- The softmax of the block's column c at row i is the attention of row i on the tile's column c. -/
theorem soft_eq (c : Dev nD) (t : Fin cfg0.N) (i : Fin 4096) (cc : Fin 256) :
    Cert.Spec.csoft (fun k => Cert.Spec.masked (b1 m c t (ix2 k (0 : Fin 1)) + b2 m c t (ix2 (0 : Fin 1) cc)) (b0 m c t (ix3 (0 : Fin 1) k cc))) i
      = Cert.Spec.att (m ((c : Thread nD τ).loc main_arg1)) (wh1 m c) (wh2 m c) (rel t) i (colOf t cc) :=
  congrArg (fun col => Cert.Spec.csoft col i) (funext fun k => col_eq m c t cc k)

/-- The attention block of point t at (i, c): the attention of row i on the tile's column c. -/
theorem att_block (c : Dev nD) (t : Fin cfg0.N) (u : Fin 1) (i : Fin 4096) (cc : Fin 256) :
    (outsAt0 m c t.val t.isLt).1 (ix3 u i cc)
      = Cert.Spec.att (m ((c : Thread nD τ).loc main_arg1)) (wh1 m c) (wh2 m c) (rel t) i (colOf t cc) := by
  rw [outs_1 m c t]
  exact (Pay.pay3_apply (b0 m c t) (b1 m c t) (b2 m c t) u i cc).trans (soft_eq m c t i cc)

/-- The partial product of point t's tile at (i, f). -/
def part (c : Dev nD) (t : Fin cfg0.N) (i : Fin 4096) (f : Fin 64) : EReal :=
  ∑ cc : Fin 256, Cert.Spec.att (m ((c : Thread nD τ).loc main_arg1)) (wh1 m c) (wh2 m c) (rel t) i (colOf t cc) * wh m c (ix2 (colOf t cc) f)

/-- The aggregate payload over the blocks of point t: what was held plus the tile's partial product. -/
theorem pay1_block (c : Dev nD) (t : Fin cfg0.N) (acc : Vec Ideal S1x4096x64 .f32) (u : Fin 1) (i : Fin 4096) (f : Fin 64) :
    k0_pay1 (F := Ideal) (k0_pay5 (b0 m c t) (b1 m c t) (b2 m c t)) (b3 m c t) acc (ix3 u i f)
      = acc (ix3 (0 : Fin 1) i f) + part m c t i f := by
  refine (Pay.pay1_apply _ (b3 m c t) acc u i f).trans ?_
  refine congrArg (fun z => acc (ix3 (0 : Fin 1) i f) + z) (Finset.sum_congr rfl fun cc _ => ?_)
  rw [Pay.pay5_apply, b3_apply, soft_eq]

/-- At the first tile the aggregate block is zero plus the tile's partial product, -/
theorem step_A (c : Dev nD) (t : Fin cfg0.N) (h0 : t.val % 16 = 0) (u : Fin 1) (i : Fin 4096) (f : Fin 64) :
    (outsAt0 m c t.val t.isLt).2 (ix3 u i f) = 0 + part m c t i f := by
  rw [outs_A_2 m c t h0]
  exact (pay1_block m c t (k0_pay4 (F := Ideal)) u i f).trans (congrArg (fun z : EReal => z + part m c t i f) (Pay.pay4_apply (0 : Fin 1) i f))

/-- and at every other tile what the tile before left plus the tile's partial product. -/
theorem step_B (c : Dev nD) (t : Fin cfg0.N) (h0 : ¬t.val % 16 = 0) (u : Fin 1) (i : Fin 4096) (f : Fin 64) :
    (outsAt0 m c t.val t.isLt).2 (ix3 u i f)
      = (outsAt0 m c (t.val - 1) (Nat.lt_of_le_of_lt (Nat.sub_le _ _) t.isLt)).2 (ix3 (0 : Fin 1) i f) + part m c t i f := by
  rw [outs_B_2 m c t h0]
  exact pay1_block m c t _ u i f

/-- The partial product of the point numbered k (zero past the grid). -/
def partN (c : Dev nD) (i : Fin 4096) (f : Fin 64) (k : ℕ) : EReal :=
  if h : k < cfg0.N then part m c ⟨k, h⟩ i f else 0

theorem partN_of_lt (c : Dev nD) (i : Fin 4096) (f : Fin 64) (k : ℕ) (h : k < cfg0.N) :
    partN m c i f k = part m c ⟨k, h⟩ i f := dif_pos h

/-- THE RUNNING TOTAL: after point n the aggregate block holds the partial products of the tiles 0 … n % 16 of relation n / 16. -/
theorem acc_eq (c : Dev nD) (i : Fin 4096) (f : Fin 64) : ∀ (n : ℕ) (h : n < cfg0.N) (u : Fin 1),
    (outsAt0 m c n h).2 (ix3 u i f) = ∑ b ∈ Finset.range (n % 16 + 1), partN m c i f (16 * (n / 16) + b) := by
  intro n
  induction n with
  | zero =>
    intro h u
    refine (step_A m c ⟨0, h⟩ rfl u i f).trans ?_
    rw [zero_add]
    show _ = ∑ b ∈ Finset.range 1, partN m c i f (16 * 0 + b)
    rw [Finset.sum_range_one]
    exact (partN_of_lt m c i f 0 h).symm
  | succ n ih =>
    intro h u
    by_cases h0 : (n + 1) % 16 = 0
    · refine (step_A m c ⟨n + 1, h⟩ h0 u i f).trans ?_
      rw [zero_add, h0, Finset.sum_range_one, show 16 * ((n + 1) / 16) + 0 = n + 1 by omega]
      exact (partN_of_lt m c i f (n + 1) h).symm
    · refine (step_B m c ⟨n + 1, h⟩ h0 u i f).trans ?_
      show (outsAt0 m c n _).2 (ix3 (0 : Fin 1) i f) + _ = _
      have e1 : (n + 1) % 16 + 1 = (n % 16 + 1) + 1 := by omega
      have e2 : (n + 1) / 16 = n / 16 := by omega
      have e3 : 16 * (n / 16) + (n % 16 + 1) = n + 1 := by omega
      rw [e1, e2, Finset.sum_range_succ (fun b => partN m c i f (16 * (n / 16) + b)) (n % 16 + 1), e3,
        ← ih (Nat.lt_of_succ_lt h) (0 : Fin 1), partN_of_lt m c i f (n + 1) h]

/-- After the last tile of a relation the aggregate block is the specification's aggregate of that relation. -/
theorem agg_block (c : Dev nD) (t : Fin cfg0.N) (h15 : t.val % 16 = 15) (u : Fin 1) (i : Fin 4096) (f : Fin 64) :
    (outsAt0 m c t.val t.isLt).2 (ix3 u i f)
      = Cert.Spec.agg (m ((c : Thread nD τ).loc main_arg1)) (wh m c) (wh1 m c) (wh2 m c) (rel t) i f := by
  have hN : cfg0.N = 64 := N_0
  have ht := t.isLt
  rw [acc_eq m c i f t.val t.isLt u, h15, Finset.sum_range]
  unfold Cert.Spec.agg
  rw [Cert.LibBlockedSum.sum_blocks 16 256 (fun j : Fin (16 * 256) =>
    Cert.Spec.att (m ((c : Thread nD τ).loc main_arg1)) (wh1 m c) (wh2 m c) (rel t) i j * wh m c (ix2 j f))]
  refine Finset.sum_congr rfl fun b _ => ?_
  have hb := b.isLt
  have hlt : 16 * (t.val / 16) + b.val < cfg0.N := by omega
  rw [partN_of_lt m c i f _ hlt]
  unfold part
  refine Finset.sum_congr rfl fun cc _ => ?_
  have hr : rel ⟨16 * (t.val / 16) + b.val, hlt⟩ = rel t := Fin.ext (by show (16 * (t.val / 16) + b.val) / 16 = t.val / 16; omega)
  have hc : colOf ⟨16 * (t.val / 16) + b.val, hlt⟩ cc = Cert.LibBlockedSum.slot 16 256 b cc :=
    Fin.ext (by show 256 * ((16 * (t.val / 16) + b.val) % 16) + cc.val = cc.val + 256 * b.val; omega)
  rw [hr, hc]

end IdealValues

end Cert.KernelIdeal.Acc

end
-- ==== Proof.KFinal.lean ====
/-
  The two result arrays of the kernel after the whole grid has run.

  Every point writes its attention block back, and the 64 blocks tile the [4, 4096, 4096] array (relation t / 16, all rows,
  column tile t % 16): the array ends holding the specification's attention. The aggregate block is written back after the
  last column tile of each relation only, when it holds the relation's whole aggregate; the four slabs tile the
  [4, 4096, 64] array.
-/
import proofs.«163317_j45689862094922_1_alg».proof.Proof.KAcc

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc Cert.KernelIdeal.HostPre

variable (m : (ℓ : Loc nD τ sig) → Buf (Elt Ideal) ℓ)

/-- The attention as the kernel's result array holds it. -/
def attRes (c : Dev nD) : Cert.Spec.SEdge.Idx → EReal :=
  Cert.Spec.attArr (m ((c : Thread nD τ).loc main_arg1)) (wh1 m c) (wh2 m c)

/-- The aggregate as the kernel's second result array holds it. -/
def aggRes (c : Dev nD) : Cert.Spec.SAgg.Idx → EReal :=
  Cert.Spec.aggArr (m ((c : Thread nD τ).loc main_arg1)) (wh m c) (wh1 m c) (wh2 m c)

/-! ## The attention array -/

/-- Where entry j of point t's attention block sits in the array. -/
theorem emb4 (t : Fin cfg0.N) (u : Fin 1) (i : Fin 4096) (cc : Fin 256) :
    ((cfg0.win 4).blk t).view.emb (ix3 u i cc) = ix3 (rel t) i (colOf t cc) := by
  obtain ⟨-, -, -, -, -, -, -, -, -, e0, e1, e2, -⟩ := Blocks.idx_facts t
  funext a
  apply Fin.ext
  have hu : u.val < 1 := u.isLt
  match a with
  | ⟨0, _⟩ => show win0_4.index t (0 : Fin 3) * 1 + 1 * u.val = t.val / 16; rw [e0]; omega
  | ⟨1, _⟩ => show win0_4.index t (1 : Fin 3) * 4096 + 1 * i.val = i.val; rw [e1]; omega
  | ⟨2, _⟩ => show win0_4.index t (2 : Fin 3) * 256 + 1 * cc.val = 256 * (t.val % 16) + cc.val; rw [e2]; omega

/-- What point t leaves in the attention block is block t of the attention. -/
theorem out4_at (c : Dev nD) (t : Fin cfg0.N) (j : S1x4096x256.Idx) :
    (outsAt0 m c t.val t.isLt).1 j = attRes m c (((cfg0.win 4).blk t).view.emb j) := by
  obtain ⟨u, i, cc, rfl⟩ : ∃ (u : Fin 1) (i : Fin 4096) (cc : Fin 256), j = ix3 u i cc := ⟨j 0, j 1, j 2, eq_ix3 j⟩
  rw [att_block m c t u i cc, emb4 t u i cc]
  rfl

/-- WHAT POINT t WRITES BACK is block t of the attention. -/
theorem flushed4_eq (c : Dev nD) (t : Fin cfg0.N) :
    (dats m 0 c).flushed 4 t = ((cfg0.win 4).blk t).view.read (Elt Ideal) (attRes m c) := by
  show (cfg0.win 4).cut (grid0.coords t) ((dats m 0 c).after 4 t) = _
  rw [after0_4]
  funext j
  exact out4_at m c t j

/-- An index of the array is in point t's block iff each coordinate is in the block's range on its axis. -/
theorem mem_blk4 (t : Fin cfg0.N) (i : S4x4096x4096.Idx) :
    i ∈ ((cfg0.win 4).blk t).view.set ↔ ∀ a : Fin 3, win0_4.index t a * S1x4096x256.size a ≤ (i a).val ∧ (i a).val < win0_4.index t a * S1x4096x256.size a + S1x4096x256.size a := by
  show i ∈ ((View.whole main_v6_0).slice (win0_4.rect t)).set ↔ _
  rw [View.set_slice_whole, Rect.mem_set_unit]
  exact Iff.rfl

/-- THE ATTENTION ARRAY after the run. -/
theorem final4 (c : Dev nD) : (dats m 0 c).arrAt 4 cfg0.N = attRes m c :=
  (dats m 0 c).arrAt_eq_of_cover 4 (attRes m c) (fun t _ => flushed4_eq m c t) fun i => by
    have hN : cfg0.N = 64 := N_0
    have h0 : (i 0).val < 4 := (i 0).isLt
    have h1 : (i 1).val < 4096 := (i 1).isLt
    have h2 : (i 2).val < 4096 := (i 2).isLt
    refine ⟨⟨16 * (i 0).val + (i 2).val / 256, by omega⟩, flush0_4 _, ?_⟩
    rw [mem_blk4]
    obtain ⟨-, -, -, -, -, -, -, -, -, e0, e1, e2, -⟩ := Blocks.idx_facts ⟨16 * (i 0).val + (i 2).val / 256, by omega⟩
    intro a
    match a with
    | ⟨0, _⟩ => show win0_4.index _ (0 : Fin 3) * 1 ≤ (i 0).val ∧ (i 0).val < win0_4.index _ (0 : Fin 3) * 1 + 1
                rw [e0]; dsimp only; omega
    | ⟨1, _⟩ => show win0_4.index _ (1 : Fin 3) * 4096 ≤ (i 1).val ∧ (i 1).val < win0_4.index _ (1 : Fin 3) * 4096 + 4096
                rw [e1]; omega
    | ⟨2, _⟩ => show win0_4.index _ (2 : Fin 3) * 256 ≤ (i 2).val ∧ (i 2).val < win0_4.index _ (2 : Fin 3) * 256 + 256
                rw [e2]; dsimp only; omega

/-! ## The aggregate array -/

theorem emb5 (t : Fin cfg0.N) (u : Fin 1) (i : Fin 4096) (f : Fin 64) :
    ((cfg0.win 5).blk t).view.emb (ix3 u i f) = ix3 (rel t) i f := by
  obtain ⟨-, -, -, -, -, -, -, -, -, -, -, -, e0, e1, e2⟩ := Blocks.idx_facts t
  funext a
  apply Fin.ext
  have hu : u.val < 1 := u.isLt
  match a with
  | ⟨0, _⟩ => show win0_5.index t (0 : Fin 3) * 1 + 1 * u.val = t.val / 16; rw [e0]; omega
  | ⟨1, _⟩ => show win0_5.index t (1 : Fin 3) * 4096 + 1 * i.val = i.val; rw [e1]; omega
  | ⟨2, _⟩ => show win0_5.index t (2 : Fin 3) * 64 + 1 * f.val = f.val; rw [e2]; omega

/-- After the last column tile of a relation the aggregate block is that relation's slab of the aggregate. -/
theorem out5_at (c : Dev nD) (t : Fin cfg0.N) (h15 : t.val % 16 = 15) (j : S1x4096x64.Idx) :
    (outsAt0 m c t.val t.isLt).2 j = aggRes m c (((cfg0.win 5).blk t).view.emb j) := by
  obtain ⟨u, i, f, rfl⟩ : ∃ (u : Fin 1) (i : Fin 4096) (f : Fin 64), j = ix3 u i f := ⟨j 0, j 1, j 2, eq_ix3 j⟩
  rw [agg_block m c t h15 u i f, emb5 t u i f]
  rfl

/-- WHAT A WRITING POINT WRITES BACK is its relation's slab of the aggregate. -/
theorem flushed5_eq (c : Dev nD) (t : Fin cfg0.N) (hf : (cfg0.win 5).flush t = true) :
    (dats m 0 c).flushed 5 t = ((cfg0.win 5).blk t).view.read (Elt Ideal) (aggRes m c) := by
  have h15 : t.val % 16 = 15 := (flush0_5 t).mp hf
  show (cfg0.win 5).cut (grid0.coords t) ((dats m 0 c).after 5 t) = _
  rw [after0_5]
  funext j
  exact out5_at m c t h15 j

theorem mem_blk5 (t : Fin cfg0.N) (i : S4x4096x64.Idx) :
    i ∈ ((cfg0.win 5).blk t).view.set ↔ ∀ a : Fin 3, win0_5.index t a * S1x4096x64.size a ≤ (i a).val ∧ (i a).val < win0_5.index t a * S1x4096x64.size a + S1x4096x64.size a := by
  show i ∈ ((View.whole main_v6_1).slice (win0_5.rect t)).set ↔ _
  rw [View.set_slice_whole, Rect.mem_set_unit]
  exact Iff.rfl

/-- THE AGGREGATE ARRAY after the run. -/
theorem final5 (c : Dev nD) : (dats m 0 c).arrAt 5 cfg0.N = aggRes m c :=
  (dats m 0 c).arrAt_eq_of_cover 5 (aggRes m c) (flushed5_eq m c) fun i => by
    have hN : cfg0.N = 64 := N_0
    have h0 : (i 0).val < 4 := (i 0).isLt
    have h1 : (i 1).val < 4096 := (i 1).isLt
    have h2 : (i 2).val < 64 := (i 2).isLt
    refine ⟨⟨16 * (i 0).val + 15, by omega⟩, (flush0_5 _).mpr (by show (16 * (i 0).val + 15) % 16 = 15; omega), ?_⟩
    rw [mem_blk5]
    obtain ⟨-, -, -, -, -, -, -, -, -, -, -, -, e0, e1, e2⟩ := Blocks.idx_facts ⟨16 * (i 0).val + 15, by omega⟩
    intro a
    match a with
    | ⟨0, _⟩ => show win0_5.index _ (0 : Fin 3) * 1 ≤ (i 0).val ∧ (i 0).val < win0_5.index _ (0 : Fin 3) * 1 + 1
                rw [e0]; dsimp only; omega
    | ⟨1, _⟩ => show win0_5.index _ (1 : Fin 3) * 4096 ≤ (i 1).val ∧ (i 1).val < win0_5.index _ (1 : Fin 3) * 4096 + 4096
                rw [e1]; omega
    | ⟨2, _⟩ => show win0_5.index _ (2 : Fin 3) * 64 ≤ (i 2).val ∧ (i 2).val < win0_5.index _ (2 : Fin 3) * 64 + 64
                rw [e2]; omega

end Cert.KernelIdeal.Final

end
-- ==== Proof.KTail.lean ====
/-
  The kernel program's host operations after its region, read at the buffer they end in.

  After the region the program transposes the region's second array ([4, 4096, 64], the aggregate) to [4096, 4, 64],
  reshapes it to [4096, 256], and applies the exponential linear unit spelt as a select: x where x is above the
  broadcast zero, exp x minus the broadcast one elsewhere. No other buffer the tail reads is written by it, so the
  tail's fold at its last buffer is that function of the region's second array; the transpose and the reshape stay
  the layout operations they are, and the select is the specification's unit pointwise, word for word.
-/
import proofs.«163317_j45689862094922_1_alg».proof.Proof.Gen.KernelIdeal.Frame
import proofs.«163317_j45689862094922_1_alg».proof.Proof.Spec
import Idealize.ShloMosaic.Lib.StableHlo.Run

noncomputable section

namespace Cert.KernelIdeal.Tail

open Cert.KernelIdeal Idealize.ShloMosaic Idealize.ShloMosaic.TcCoe Idealize.SL.Sem Idealize.ShloMosaic.StableHlo

variable {F : FTy → Type} [FloatOps F]

/-- The aggregate's relations laid side by side, [4096, 256]: the transpose to [4096, 4, 64] and the reshape. -/
def sideBySide (g : FVec F S4x4096x64 .f32) : FVec F S4096x256 .f32 :=
  fun i => shapeCast S4096x256 (transpose S4096x4x64 [1, 0, 2] g Gen.transposes_S4x4096x64_S4096x4x64_1_0_2) Gen.shapeCasts_S4096x4x64_S4096x256 i

/-- The exponential linear unit as the program spells it: x where above zero, exp x minus one elsewhere. -/
def eluOf (x : FVec F S4096x256 .f32) : FVec F S4096x256 .f32 :=
  select (cmpf .ogt x (broadcastInDim S4096x256 ![] Gen.bcast_S_S4096x256 (constant S_ .f32 0x00000000#32))) x
    (subf (Host.exp x) (broadcastInDim S4096x256 ![] Gen.bcast_S_S4096x256 (constant S_ .f32 0x3F800000#32)))

/-- The ten operations after the region, in order. -/
abbrev tailOps : List (HloOp τ sig (Elt F)) := List.flatten [Gen.hostOps1, Gen.hostOps1_1]

/-- The fold of the tail at its last buffer, from any contents: the unit of the side-by-side layout of what the
    region's second array holds. -/
theorem v14_fold (W : Valuation τ sig (Elt F)) :
    after (tailOps (F := F)) W (main_v14 : DevRef τ sig) = eluOf (sideBySide (W (main_v6_1 : DevRef τ sig))) := by
  simp only [tailOps, Gen.hostOps1, Gen.hostOps1_1, List.flatten_cons, List.flatten_nil, List.append_nil, List.cons_append,
    List.nil_append]
  after_results_simp
  rfl

/-- At the ideal values the program's unit is the specification's, pointwise, word for word. -/
theorem eluOf_spec (x : FVec Ideal S4096x256 .f32) : eluOf x = fun y => Cert.Spec.elu (x y) := by
  funext y
  rfl

/-- The tail's result over the region's second array. -/
theorem v14_eq (m : (ℓ : Loc nD τ sig) → Buf (Elt Ideal) ℓ) (c : Dev nD)
    (HP : Cert.Spec.SAgg.Idx → EReal) (hHP : (Gen.dats m 0 c).arrAt 5 cfg0.N = HP) :
    Pipeline.afterTail₀ cfgs (Gen.dats m) 0 (Gen.V0 m) [Gen.hostOps1, Gen.hostOps1_1] c main_v14
      = fun y => Cert.Spec.elu (shapeCast S4096x256 (transpose S4096x4x64 [1, 0, 2] HP Gen.transposes_S4x4096x64_S4096x4x64_1_0_2) Gen.shapeCasts_S4096x4x64_S4096x256 y) := by
  unfold Pipeline.afterTail₀
  refine (v14_fold (F := Ideal) _).trans ?_
  have hA : Pipeline.withArrays (cfgs 0).spec c (Gen.V0 m c) (fun w => (Gen.dats m 0 c).arrAt w (cfgs 0).N) (Proc.devRef .tc main_v6_1) = HP :=
    (Pipeline.withArrays_arr spec0 Gen.launch0.win.arr_inj c _ _ 5).trans hHP
  rw [hA]
  exact eluOf_spec (sideBySide HP)

end Cert.KernelIdeal.Tail

end
-- ==== Proof.KRun.lean ====
/-
  The idealized kernel's run, read: every weakly fair execution ends with the attention array at the specification's
  attention, the first result at the specification's output (the relations' aggregates side by side under the exponential
  linear unit), and the argument arrays as they were.
-/
import proofs.«163317_j45689862094922_1_alg».proof.Proof.KFinal
import proofs.«163317_j45689862094922_1_alg».proof.Proof.KTail

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.HostPre Cert.KernelIdeal.Final

variable (m : (ℓ : Loc nD τ sig) → Buf (Elt Ideal) ℓ) (ρ : Dev nD → PrngReg)

/-- The first result: the aggregates side by side under the exponential linear unit. -/
def outRes (c : Dev nD) : (⟨2, ![4096, 256]⟩ : Shape).Idx → EReal :=
  Cert.Spec.outArr (m ((c : Thread nD τ).loc main_arg1)) (wh m c) (wh1 m c) (wh2 m c)
    Gen.transposes_S4x4096x64_S4096x4x64_1_0_2 Gen.shapeCasts_S4096x4x64_S4096x256

theorem run : θ_run (defs (F := Ideal)) (onTc (τ := τ) (main (F := Ideal))) ⟨m, fun _ => 0, ρ⟩ (fun r => ∀ c : Dev nD,
      r.2.mem ((c.tc : Thread nD τ).loc main_v14) = outRes m c
      ∧ r.2.mem ((c.tc : Thread nD τ).loc main_v6_0) = attRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v14 (Pipeline.mem_restRefs_of main_v14 (by decide) (by decide))).trans
        (Cert.KernelIdeal.Tail.v14_eq m c (aggRes m c) (final5 m c)),
      ((h c).1 4).trans (final4 m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefRun.lean ====
/-
  The reference program's @main as ONE straight line of host operations, and its run.

  @main calls three module-local functions — the leaky rectifier (which calls a select helper), a select helper with a
  scalar fill, and the exponential linear unit (which calls two select helpers). A call means its callee's body on the
  operands, each value of the body in a buffer of its own (the call's buffer record), so @main is the list of its own
  operations with each callee's operations listed in place at the call: fifty-nine operations. The list and @main are the
  same chain of steps once sequencing is reassociated; every weakly fair execution therefore terminates with each buffer
  at the operations' fold over the launch contents.
-/
import proofs.«163317_j45689862094922_1_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's fifty-nine operations in order, the calls unfolded: ten of its own (the three products, the two slices, the
    transpose, the two broadcasts, the sum, the slope), the rectifier's seven (zero, its broadcast, the comparison, the
    slope converted and broadcast, the product, the select), seven of its own (two broadcasts, the product with the edge
    weights, zero and its broadcast, the comparison, the fill), the masking select's three, seventeen of its own (the
    softmax down axis 1, the contraction with the projected features, the transpose and the reshape), and the exponential
    linear unit's fifteen. -/
abbrev ops : List (HloOp τ sig (Elt F)) :=
  [ binary main_arg0 main_arg2 main_v0 ((fun l r => Host.dotGeneral dot_S4096x256_S256x64_S4096x64_1_0_0_1_n_n none l r) : (⟨S4096x256, .f32⟩ : BufTy).Contents (Elt F) → (⟨S256x64, .f32⟩ : BufTy).Contents (Elt F) → (⟨S4096x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg3 main_v3 ((extractStridedSlice S64x1 ![64, 0] · slices_S128x1_S64x1_64_0) : (⟨S128x1, .f32⟩ : BufTy).Contents (Elt F) → (⟨S64x1, .f32⟩ : BufTy).Contents (Elt F)),
    binary main_v0 main_v3 main_v4 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v4 main_v5 ((transpose S1x4096 [1, 0] · transposes_S4096x1_S1x4096_1_0) : (⟨S4096x1, .f32⟩ : BufTy).Contents (Elt F) → (⟨S1x4096, .f32⟩ : BufTy).Contents (Elt F)),
    unary main_v2 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v8) main_call0.v0 main_call0.v1 (cmpf .oge),
    TRef.unary (.of main_cst) main_call0.v2 id,
    TRef.unary main_call0.v2 main_call0.v3 (broadcastInDim S4096x4096 ![] bcast_S_S4096x4096),
    TRef.binary main_call0.v3 (.of main_v8) main_call0.v4 mulf,
    TRef.ternary main_call0.v1 (.of main_v8) main_call0.v4 main_call0.call0.v0 select,
    unary main_v9 main_v10 (broadcastInDim S1x4096x4096 ![1, 2] bcast_S4096x4096_S1x4096x4096_1_2 : (⟨S4096x4096, .f32⟩ : BufTy).Contents (Elt F) → (⟨S1x4096x4096, .f32⟩ : BufTy).Contents (Elt F)),
    unary main_v10 main_v11 (broadcastInDim S4x4096x4096 ![0, 1, 2] bcast_S1x4096x4096_S4x4096x4096_0_1_2 : (⟨S1x4096x4096, .f32⟩ : BufTy).Contents (Elt F) → (⟨S4x4096x4096, .f32⟩ : BufTy).Contents (Elt F)),
    binary main_v11 main_arg1 main_v12 (mulf : (⟨S4x4096x4096, .f32⟩ : BufTy).Contents (Elt F) → (⟨S4x4096x4096, .f32⟩ : BufTy).Contents (Elt F) → (⟨S4x4096x4096, .f32⟩ : BufTy).Contents (Elt F)),
    nullary main_cst_0 (constant S_ .f32 0x00000000#32),
    unary main_cst_0 main_v13 (broadcastInDim S4x4096x4096 ![] bcast_S_S4x4096x4096 : (⟨S_, .f32⟩ : BufTy).Contents (Elt F) → (⟨S4x4096x4096, .f32⟩ : BufTy).Contents (Elt F)),
    binary main_arg1 main_v13 main_v14 (cmpf .ogt : (⟨S4x4096x4096, .f32⟩ : BufTy).Contents (Elt F) → (⟨S4x4096x4096, .f32⟩ : BufTy).Contents (Elt F) → (⟨S4x4096x4096, .i1⟩ : BufTy).Contents (Elt F)),
    nullary main_cst_1 (constant S_ .f32 0xD9FFCB9E#32),
    TRef.unary (.of main_cst_1) main_call1.v0 id,
    TRef.unary main_call1.v0 main_call1.v1 (broadcastInDim S4x4096x4096 ![] bcast_S_S4x4096x4096),
    TRef.ternary (.of main_v14) (.of main_v12) main_call1.v1 main_call1.v2 select,
    nullary main_cst_2 (constant S_ .f32 0xFF800000#32),
    binary main_v15 main_cst_2 main_v16 ((fun x v => Host.reduce FloatOps.maximumf x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    nullary main_cst_3 (constant S_ .f32 0xFF800000#32),
    unary main_cst_3 main_v17 (broadcastInDim S4x4096 ![] bcast_S_S4x4096 : (⟨S_, .f32⟩ : BufTy).Contents (Elt F) → (⟨S4x4096, .f32⟩ : BufTy).Contents (Elt F)),
    binary main_v17 main_v16 main_v18 (maximumf : (⟨S4x4096, .f32⟩ : BufTy).Contents (Elt F) → (⟨S4x4096, .f32⟩ : BufTy).Contents (Elt F) → (⟨S4x4096, .f32⟩ : BufTy).Contents (Elt F)),
    unary main_v18 main_v19 (broadcastInDim S4x1x4096 ![0, 2] bcast_S4x4096_S4x1x4096_0_2 : (⟨S4x4096, .f32⟩ : BufTy).Contents (Elt F) → (⟨S4x1x4096, .f32⟩ : BufTy).Contents (Elt F)),
    unary main_v19 main_v20 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v15 main_v20 main_v21 (subf : (⟨S4x4096x4096, .f32⟩ : BufTy).Contents (Elt F) → (⟨S4x4096x4096, .f32⟩ : BufTy).Contents (Elt F) → (⟨S4x4096x4096, .f32⟩ : BufTy).Contents (Elt F)),
    unary main_v21 main_v22 (Host.exp : (⟨S4x4096x4096, .f32⟩ : BufTy).Contents (Elt F) → (⟨S4x4096x4096, .f32⟩ : BufTy).Contents (Elt F)),
    nullary main_cst_4 (constant S_ .f32 0x00000000#32),
    binary main_v22 main_cst_4 main_v23 ((fun x v => Host.reduceAdd x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    unary main_v23 main_v24 (broadcastInDim S4x1x4096 ![0, 2] bcast_S4x4096_S4x1x4096_0_2 : (⟨S4x4096, .f32⟩ : BufTy).Contents (Elt F) → (⟨S4x1x4096, .f32⟩ : BufTy).Contents (Elt F)),
    unary main_v24 main_v25 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    binary main_v22 main_v25 main_v26 (Host.divf : (⟨S4x4096x4096, .f32⟩ : BufTy).Contents (Elt F) → (⟨S4x4096x4096, .f32⟩ : BufTy).Contents (Elt F) → (⟨S4x4096x4096, .f32⟩ : BufTy).Contents (Elt F)),
    binary main_v26 main_v0 main_v27 ((fun l r => Host.dotGeneral dot_S4x4096x4096_S4096x64_S4x4096x64_2_0_01_1_n_n none l r) : (⟨S4x4096x4096, .f32⟩ : BufTy).Contents (Elt F) → (⟨S4096x64, .f32⟩ : BufTy).Contents (Elt F) → (⟨S4x4096x64, .f32⟩ : BufTy).Contents (Elt F)),
    unary main_v27 main_v28 ((transpose S4096x4x64 [1, 0, 2] · transposes_S4x4096x64_S4096x4x64_1_0_2) : (⟨S4x4096x64, .f32⟩ : BufTy).Contents (Elt F) → (⟨S4096x4x64, .f32⟩ : BufTy).Contents (Elt F)),
    reshape main_v28 main_v29 rfl shapeCasts_S4096x4x64_S4096x256,
    TRef.nullary main_call2.cst (constant S_ .f32 0x00000000#32),
    TRef.unary main_call2.cst main_call2.v0 (broadcastInDim S4096x256 ![] bcast_S_S4096x256),
    TRef.binary (.of main_v29) main_call2.v0 main_call2.v1 (cmpf .ogt),
    TRef.nullary main_call2.cst_0 (constant S_ .f32 0x00000000#32),
    TRef.unary main_call2.cst_0 main_call2.v2 (broadcastInDim S4096x256 ![] bcast_S_S4096x256),
    TRef.binary (.of main_v29) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S4096x256 ![] bcast_S_S4096x256),
    TRef.ternary main_call2.v3 main_call2.call0.v1 (.of main_v29) main_call2.call0.v2 select,
    TRef.unary main_call2.call0.v2 main_call2.v5 Host.expm1,
    TRef.nullary main_call2.cst_2 (constant S_ .f32 0x3F800000#32),
    TRef.unary main_call2.cst_2 main_call2.v6 (broadcastInDim S4096x256 ![] bcast_S_S4096x256),
    TRef.binary main_call2.v6 main_call2.v5 main_call2.v7 mulf,
    TRef.ternary main_call2.v1 (.of main_v29) main_call2.v7 main_call2.call1.v0 select ]

-- fifty-nine binds re-associated: the rewrite under the chain recurses once per statement
set_option maxRecDepth 2048 in
/-- @main is that straight line: the functions' definitions unfolded at their calls and the records at their fields, both
    sides are one chain of steps once sequencing is reassociated. -/
theorem main_eq (c : Dev nD) : main (F := F) c = seq ops := by
  simp only [main, fn_leaky_relu.body, fn_where.body, fn_where_0.body, fn_elu.body, fn_where_1.body, fn_where_2.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub ..,
    unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    unary_bufs_sub .., unary_bufs_sub .., binary_bufs_sub .., nullary_bufs_sub .., unary_bufs_sub .., binary_bufs_sub ..,
    nullary_bufs_sub ..,
    unary_bufs_sub .., unary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., unary_bufs_sub .., reshape_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  What the reference's operations compose to at its two result buffers, stage by stage.

  Each stage is the operations' own term over the arrays it consumes: the pairwise logit (a column broadcast along the
  rows plus a transposed column broadcast along the columns), the leaky rectifier on it (the comparison with the
  broadcast zero selecting between the logit and the broadcast slope times it), the masking (the rectified logit
  broadcast over the relations times the edge weight where that weight exceeds the broadcast zero, the broadcast fill
  elsewhere), the softmax down axis 1 (the maximum-reduce from -inf re-maximised with the broadcast -inf, subtracted
  after two broadcasts, exponentiated, divided by its add-reduce from zero broadcast twice), the contraction with the
  projected features, the transpose and reshape, and the exponential linear unit. The fold of @main's operations at the
  two result buffers is their composition over the three host products of the arguments; the arguments are unchanged.
-/
import proofs.«163317_j45689862094922_1_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The projected features, [4096, 64]: the product of the node features with the weight matrix. -/
def whOf (h : FVec F S4096x256 .f32) (w : FVec F S256x64 .f32) : FVec F S4096x64 .f32 :=
  Host.dotGeneral dot_S4096x256_S256x64_S4096x64_1_0_0_1_n_n none h w

/-- The source logits, [4096, 1]: the projected features times the first half of the attention vector. -/
def wh1Of (wh : FVec F S4096x64 .f32) (a : FVec F S128x1 .f32) : FVec F S4096x1 .f32 :=
  Host.dotGeneral dot_S4096x64_S64x1_S4096x1_1_0_0_1_n_n none wh (extractStridedSlice S64x1 ![0, 0] a slices_S128x1_S64x1_0_0)

/-- The target logits, [4096, 1]: the projected features times the second half. -/
def wh2Of (wh : FVec F S4096x64 .f32) (a : FVec F S128x1 .f32) : FVec F S4096x1 .f32 :=
  Host.dotGeneral dot_S4096x64_S64x1_S4096x1_1_0_0_1_n_n none wh (extractStridedSlice S64x1 ![64, 0] a slices_S128x1_S64x1_64_0)

/-- The pairwise logit, [4096, 4096]: the source column along the rows plus the target column, transposed, along the columns. -/
def logit (wh1 wh2 : FVec F S4096x1 .f32) : FVec F S4096x4096 .f32 :=
  addf (broadcastInDim S4096x4096 ![0, 1] bcast_S4096x1_S4096x4096_0_1 wh1)
    (broadcastInDim S4096x4096 ![0, 1] bcast_S1x4096_S4096x4096_0_1 (transpose S1x4096 [1, 0] wh2 transposes_S4096x1_S1x4096_1_0))

/-- The leaky rectifier as the reference spells it: the logit where it is at least zero, the slope times it elsewhere. -/
def rect (s : FVec F S4096x4096 .f32) : FVec F S4096x4096 .f32 :=
  select (cmpf .oge s (broadcastInDim S4096x4096 ![] bcast_S_S4096x4096 (constant S_ .f32 0x00000000#32))) s
    (mulf (broadcastInDim S4096x4096 ![] bcast_S_S4096x4096 (constant S_ .f32 0x3E4CCCCD#32)) s)

/-- The masked scores, [4, 4096, 4096]: the rectified logit over the relations times the edge weight where that weight is
    positive, the fill elsewhere. -/
def msk (sc : FVec F S4096x4096 .f32) (edge : FVec F S4x4096x4096 .f32) : FVec F S4x4096x4096 .f32 :=
  select (cmpf .ogt edge (broadcastInDim S4x4096x4096 ![] bcast_S_S4x4096x4096 (constant S_ .f32 0x00000000#32)))
    (mulf (broadcastInDim S4x4096x4096 ![0, 1, 2] bcast_S1x4096x4096_S4x4096x4096_0_1_2
      (broadcastInDim S1x4096x4096 ![1, 2] bcast_S4096x4096_S1x4096x4096_1_2 sc)) edge)
    (broadcastInDim S4x4096x4096 ![] bcast_S_S4x4096x4096 (constant S_ .f32 0xD9FFCB9E#32))

/-- The maxima down axis 1, [4, 4096]: the maximum-reduce from -inf, re-maximised with the broadcast -inf. -/
def colMax (e : FVec F S4x4096x4096 .f32) : FVec F S4x4096 .f32 :=
  maximumf (broadcastInDim S4x4096 ![] bcast_S_S4x4096 (constant S_ .f32 0xFF800000#32))
    (Host.reduce FloatOps.maximumf e (constant S_ .f32 0xFF800000#32) reducesTo_S4x4096x4096_S4x4096_d1 h_S_)

/-- A [4, 4096] array of per-column values laid back over axis 1. -/
def overRows (v : FVec F S4x4096 .f32) : FVec F S4x4096x4096 .f32 :=
  broadcastInDim S4x4096x4096 ![0, 1, 2] bcast_S4x1x4096_S4x4096x4096_0_1_2
    (broadcastInDim S4x1x4096 ![0, 2] bcast_S4x4096_S4x1x4096_0_2 v)

/-- The shifted exponentials. -/
def shiftExp (e : FVec F S4x4096x4096 .f32) : FVec F S4x4096x4096 .f32 :=
  Host.exp (subf e (overRows (colMax e)))

/-- The sums down axis 1, from zero. -/
def colSum (x : FVec F S4x4096x4096 .f32) : FVec F S4x4096 .f32 :=
  Host.reduceAdd x (constant S_ .f32 0x00000000#32) reducesTo_S4x4096x4096_S4x4096_d1 h_S_

/-- The softmax down axis 1. -/
def soft (e : FVec F S4x4096x4096 .f32) : FVec F S4x4096x4096 .f32 :=
  Host.divf (shiftExp e) (overRows (colSum (shiftExp e)))

/-- The aggregate, [4, 4096, 64]: the attention contracted with the projected features over the target node. -/
def aggOf (att : FVec F S4x4096x4096 .f32) (wh : FVec F S4096x64 .f32) : FVec F S4x4096x64 .f32 :=
  Host.dotGeneral dot_S4x4096x4096_S4096x64_S4x4096x64_2_0_01_1_n_n none att wh

/-- The relations side by side, [4096, 256]: the transpose to [4096, 4, 64] and the reshape. -/
def sideBySide (g : FVec F S4x4096x64 .f32) : FVec F S4096x256 .f32 :=
  fun i => shapeCast S4096x256 (transpose S4096x4x64 [1, 0, 2] g transposes_S4x4096x64_S4096x4x64_1_0_2) shapeCasts_S4096x4x64_S4096x256 i

/-- The exponential linear unit as the reference spells it: x where positive, elsewhere one times expm1 of (zero where
    x is positive, x elsewhere). -/
def eluOf (x : FVec F S4096x256 .f32) : FVec F S4096x256 .f32 :=
  select (cmpf .ogt x (broadcastInDim S4096x256 ![] bcast_S_S4096x256 (constant S_ .f32 0x00000000#32))) x
    (mulf (broadcastInDim S4096x256 ![] bcast_S_S4096x256 (constant S_ .f32 0x3F800000#32))
      (Host.expm1 (select (cmpf .ogt x (broadcastInDim S4096x256 ![] bcast_S_S4096x256 (constant S_ .f32 0x00000000#32)))
        (broadcastInDim S4096x256 ![] bcast_S_S4096x256 (constant S_ .f32 0x00000000#32)) x)))

/-- The attention from the argument contents. -/
def attTerm (h : FVec F S4096x256 .f32) (edge : FVec F S4x4096x4096 .f32) (w : FVec F S256x64 .f32) (a : FVec F S128x1 .f32) :
    FVec F S4x4096x4096 .f32 :=
  soft (msk (rect (logit (wh1Of (whOf h w) a) (wh2Of (whOf h w) a))) edge)

/-- The output from the argument contents. -/
def outTerm (h : FVec F S4096x256 .f32) (edge : FVec F S4x4096x4096 .f32) (w : FVec F S256x64 .f32) (a : FVec F S128x1 .f32) :
    FVec F S4096x256 .f32 :=
  eluOf (sideBySide (aggOf (attTerm h edge w a) (whOf h w)))

attribute [local irreducible] Host.reduce in
set_option maxRecDepth 8192 in
/-- The fold at the second result buffer is the attention term. -/
theorem att_eq (V : Valuation τ sig (Elt F)) :
    after ops V (main_v26 : DevRef τ sig)
      = attTerm (V (main_arg0 : DevRef τ sig)) (V (main_arg1 : DevRef τ sig)) (V (main_arg2 : DevRef τ sig)) (V (main_arg3 : DevRef τ sig)) := by
  after_results_simp
  rfl

attribute [local irreducible] Host.reduce in
set_option maxRecDepth 8192 in
/-- The fold at the first result buffer is the output term. -/
theorem out_eq (V : Valuation τ sig (Elt F)) :
    after ops V (main_v30 : DevRef τ sig)
      = outTerm (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

end Cert.RefSide

end
-- ==== Proof.RefScalar.lean ====
/-
  The scalar identities between the reference's spellings and the specification's.

  The reference's leaky rectifier tests "at least zero" where the specification tests "above zero": the two selects
  differ only at zero, where the slope times zero is zero. Its exponential linear unit multiplies by the literal one
  and takes expm1 of a select that is the argument itself off the positive branch. A column's maximum folded from
  -inf is at least -inf, so re-maximising with -inf changes nothing. A select on a comparison is an if on the order.
-/
import proofs.«163317_j45689862094922_1_alg».proof.Proof.Spec
import Idealize.ShloMosaic.PureOps.Ideal.Laws

noncomputable section

namespace Cert.RefSide

open Idealize.ShloMosaic Idealize.ShloMosaic.ValueIdx

/-- A select on "x above y" is the if on the order. -/
theorem select_ogt (x y a b : EReal) : Scalar.select (Ideal.cmp .ogt x y) a b = if y < x then a else b := by
  unfold Scalar.select Ideal.cmp
  by_cases h : y < x <;> simp [h]

/-- A select on "x at least y" is the if on the order. -/
theorem select_oge (x y a b : EReal) : Scalar.select (Ideal.cmp .oge x y) a b = if y ≤ x then a else b := by
  unfold Scalar.select Ideal.cmp
  by_cases h : y ≤ x <;> simp [h]

/-- The zero word is zero. -/
theorem zero_eq : Cert.Spec.zero = 0 := Ideal.ofBits_zero_f32

/-- The word 0x3F800000 is one. -/
theorem one_eq : Cert.Spec.one = 1 := by
  unfold Cert.Spec.one
  simp [Ideal.ofBits, Ideal.ieee]
  rw [← EReal.coe_mul, ← EReal.coe_one, EReal.coe_eq_coe_iff]
  norm_num

/-- The rectifier with "at least zero" is the rectifier with "above zero": at zero both give zero. -/
theorem rect_scalar (s : EReal) :
    Scalar.select (Ideal.cmp .oge s Cert.Spec.zero) s (Cert.Spec.slope * s) = Cert.Spec.lrelu s := by
  unfold Cert.Spec.lrelu
  rw [select_oge, select_ogt, zero_eq]
  rcases lt_trichotomy (0 : EReal) s with h | h | h
  · rw [if_pos h.le, if_pos h]
  · subst h; rw [if_pos le_rfl, if_neg (lt_irrefl _), mul_zero]
  · rw [if_neg (not_le.mpr h), if_neg (not_lt.mpr h.le)]

/-- The exponential linear unit as the reference spells it is the specification's. -/
theorem elu_scalar (x : EReal) :
    Scalar.select (Ideal.cmp .ogt x Cert.Spec.zero) x
        (Cert.Spec.one * (Ideal.exp (Scalar.select (Ideal.cmp .ogt x Cert.Spec.zero) Cert.Spec.zero x) - 1))
      = Cert.Spec.elu x := by
  unfold Cert.Spec.elu
  rw [select_ogt, select_ogt, select_ogt]
  by_cases h : Cert.Spec.zero < x
  · rw [if_pos h, if_pos h]
  · rw [if_neg h, if_neg h, if_neg h, one_eq, one_mul]

/-- Re-maximising a fold of max from b with b changes nothing. -/
theorem max_fold_self (b : EReal) (col : Fin 4096 → EReal) :
    max b ((Finset.univ : Finset (Fin 4096)).fold max b col) = (Finset.univ : Finset (Fin 4096)).fold max b col :=
  max_eq_right ((Finset.le_fold_max b).mpr (Or.inl le_rfl))

end Cert.RefSide

end
-- ==== Proof.RefRead.lean ====
/-
  The reference's stages read at an index, at the ideal values.

  Index by index (r < 4; i, j < 4096; f < 64): the logit is wh1 (i, 0) + wh2 (j, 0); the rectifier and the masking are
  pointwise, so the masked score at (r, i, j) is the specification's column j of relation r at i; the maximum-reduce
  down axis 1 is the fold of max from -inf over i, and re-maximising it with -inf changes nothing; the add-reduce from
  zero is the sum over i; so the softmax is the specification's attention. The contraction with the projected features
  is the sum over the target node after the contraction index is identified with its one coordinate. The exponential
  linear unit is pointwise.
-/
import proofs.«163317_j45689862094922_1_alg».proof.Proof.RefTerm
import proofs.«163317_j45689862094922_1_alg».proof.Proof.RefScalar
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx

/-- The pairwise logit at (i, j). -/
theorem logit_apply (wh1 wh2 : FVec Ideal S4096x1 .f32) (i j : Fin 4096) :
    logit wh1 wh2 (ix2 i j) = wh1 (ix2 i (0 : Fin 1)) + wh2 (ix2 j (0 : Fin 1)) := by
  unfold logit
  rw [addf_apply,
    broadcastInDim_apply _ _ wh1 (ix2 i j) (ix2 i (0 : Fin 1)) (fun a => by match a with | ⟨0, _⟩ => rfl | ⟨1, _⟩ => rfl),
    broadcastInDim_apply _ _ _ (ix2 i j) (ix2 (0 : Fin 1) j) (fun a => by match a with | ⟨0, _⟩ => rfl | ⟨1, _⟩ => rfl),
    transpose_apply _ wh2 _ (ix2 (0 : Fin 1) j) (ix2 j (0 : Fin 1)) (fun b => by match b with | ⟨0, _⟩ => rfl | ⟨1, _⟩ => rfl)]

/-- The reference's rectifier is the specification's, pointwise. -/
theorem rect_apply (s : FVec Ideal S4096x4096 .f32) (y : S4096x4096.Idx) : rect s y = Cert.Spec.lrelu (s y) :=
  rect_scalar (s y)

/-- The masking at (r, i, j). -/
theorem msk_apply (sc : FVec Ideal S4096x4096 .f32) (edge : FVec Ideal S4x4096x4096 .f32) (r : Fin 4) (i j : Fin 4096) :
    msk sc edge (ix3 r i j)
      = Scalar.select (Ideal.cmp .ogt (edge (ix3 r i j)) Cert.Spec.zero) (sc (ix2 i j) * edge (ix3 r i j)) Cert.Spec.fill := by
  unfold msk
  rw [select_apply, cmpf_apply, mulf_apply,
    broadcastInDim_apply _ _ _ (ix3 r i j) (ix3 (0 : Fin 1) i j) (fun a => by match a with | ⟨0, _⟩ => rfl | ⟨1, _⟩ => rfl | ⟨2, _⟩ => rfl),
    broadcastInDim_apply _ _ sc (ix3 (0 : Fin 1) i j) (ix2 i j) (fun a => by match a with | ⟨0, _⟩ => rfl | ⟨1, _⟩ => rfl)]
  rfl

/-- The masked scores are the specification's columns. -/
theorem scores_apply (wh1 wh2 : FVec Ideal S4096x1 .f32) (edge : FVec Ideal S4x4096x4096 .f32) (r : Fin 4) (i j : Fin 4096) :
    msk (rect (logit wh1 wh2)) edge (ix3 r i j) = Cert.Spec.column edge wh1 wh2 r j i := by
  rw [msk_apply, rect_apply, logit_apply]
  rfl

/-- Axis 1 of [4, 4096, 4096] reduces to [4, 4096]. -/
theorem red_d1 : S4x4096x4096.Reduces [1] S4x4096 := by decide

/-- The index (r, j) with the coordinate k inserted on axis 1 is (r, k, j). -/
theorem lift_d1 (r : Fin 4) (j k : Fin 4096) : red_d1.lift (ix2 r j) k = ix3 r k j := by
  funext a
  apply Fin.ext
  match a with
  | ⟨0, _⟩ => rfl
  | ⟨1, _⟩ => rfl
  | ⟨2, _⟩ => rfl

/-- A per-column value laid back over axis 1, read at (r, i, j). -/
theorem overRows_apply (v : FVec Ideal S4x4096 .f32) (r : Fin 4) (i j : Fin 4096) : overRows v (ix3 r i j) = v (ix2 r j) := by
  unfold overRows
  rw [broadcastInDim_apply _ _ _ (ix3 r i j) (ix3 r (0 : Fin 1) j) (fun a => by match a with | ⟨0, _⟩ => rfl | ⟨1, _⟩ => rfl | ⟨2, _⟩ => rfl),
    broadcastInDim_apply _ _ v (ix3 r (0 : Fin 1) j) (ix2 r j) (fun a => by match a with | ⟨0, _⟩ => rfl | ⟨1, _⟩ => rfl)]

/-- The maximum down axis 1 at (r, j) is the column's maximum folded from -inf. -/
theorem colMax_apply (e : FVec Ideal S4x4096x4096 .f32) (r : Fin 4) (j : Fin 4096) :
    colMax e (ix2 r j) = Cert.Spec.cmax (fun k => e (ix3 r k j)) := by
  unfold colMax
  rw [maximumf_apply,
    Host.reduce_eq_fold_single (FloatOps.maximumf (F := Ideal) (φ := .f32)) e _ reducesTo_S4x4096x4096_S4x4096_d1 red_d1 h_S_ (ix2 r j)]
  have hl : (e ∘ red_d1.lift (ix2 r j)) = fun k : Fin 4096 => e (ix3 r k j) := funext fun k => congrArg e (lift_d1 r j k)
  rw [hl]
  exact max_fold_self Cert.Spec.negInf _

/-- The shifted exponential at (r, i, j). -/
theorem shiftExp_apply (e : FVec Ideal S4x4096x4096 .f32) (r : Fin 4) (i j : Fin 4096) :
    shiftExp e (ix3 r i j) = Cert.Spec.cexp (fun k => e (ix3 r k j)) i := by
  unfold shiftExp Cert.Spec.cexp
  show Ideal.exp (subf e (overRows (colMax e)) (ix3 r i j)) = _
  rw [subf_apply, overRows_apply, colMax_apply]

/-- The sum down axis 1 at (r, j). -/
theorem colSum_apply (x : FVec Ideal S4x4096x4096 .f32) (r : Fin 4) (j : Fin 4096) :
    colSum x (ix2 r j) = ∑ k : Fin 4096, x (ix3 r k j) := by
  unfold colSum Host.reduceAdd
  rw [Ideal.hostReduceAdd_def, Ideal.hostReduceAdd_single reducesTo_S4x4096x4096_S4x4096_d1 red_d1 x _ (ix2 r j)]
  show Ideal.ofBits .f32 0x00000000#32 + _ = _
  rw [Ideal.ofBits_zero_f32, zero_add]
  exact Finset.sum_congr rfl fun k _ => congrArg x (lift_d1 r j k)

/-- The softmax down axis 1 at (r, i, j) is the column's softmax at i. -/
theorem soft_apply (e : FVec Ideal S4x4096x4096 .f32) (r : Fin 4) (i j : Fin 4096) :
    soft e (ix3 r i j) = Cert.Spec.csoft (fun k => e (ix3 r k j)) i := by
  unfold soft Cert.Spec.csoft
  show Ideal.div (shiftExp e (ix3 r i j)) (overRows (colSum (shiftExp e)) (ix3 r i j)) = _
  rw [overRows_apply, colSum_apply, shiftExp_apply]
  exact congrArg _ (Finset.sum_congr rfl fun k _ => shiftExp_apply e r k j)

/-- The reference's attention is the specification's. -/
theorem att_spec (wh1 wh2 : FVec Ideal S4096x1 .f32) (edge : FVec Ideal S4x4096x4096 .f32) :
    soft (msk (rect (logit wh1 wh2)) edge) = Cert.Spec.attArr edge wh1 wh2 := by
  funext y
  obtain ⟨r, i, j, rfl⟩ : ∃ (r : Fin 4) (i j : Fin 4096), y = ix3 r i j := ⟨y 0, y 1, y 2, eq_ix3 y⟩
  rw [soft_apply, Cert.Spec.attArr_apply]
  unfold Cert.Spec.att
  exact congrArg (fun col => Cert.Spec.csoft col i) (funext fun k => scores_apply wh1 wh2 edge r k j)

/-- The contraction with the projected features at (r, i, f): the sum over the target node. -/
theorem aggOf_apply (A : FVec Ideal S4x4096x4096 .f32) (wh : FVec Ideal S4096x64 .f32) (r : Fin 4) (i : Fin 4096) (f : Fin 64) :
    aggOf A wh (ix3 r i f) = ∑ j : Fin 4096, A (ix3 r i j) * wh (ix2 j f) := by
  unfold aggOf
  show FloatOps.dotGeneral dot_S4x4096x4096_S4096x64_S4x4096x64_2_0_01_1_n_n none .single A wh (ix3 r i f) = _
  rw [Ideal.dotGeneral_apply,
    ← Equiv.sum_comp (contrEquiv1 dot_S4x4096x4096_S4096x64_S4x4096x64_2_0_01_1_n_n 4096 rfl rfl).symm]
  refine Finset.sum_congr rfl fun k _ => ?_
  have hk := contrEquiv1_symm_val dot_S4x4096x4096_S4096x64_S4x4096x64_2_0_01_1_n_n 4096 rfl rfl k
  have hL : dot_S4x4096x4096_S4096x64_S4x4096x64_2_0_01_1_n_n.lhsIdx (ix3 r i f)
      ((contrEquiv1 dot_S4x4096x4096_S4096x64_S4x4096x64_2_0_01_1_n_n 4096 rfl rfl).symm k) = ix3 r i k := by
    funext a
    apply Fin.ext
    match a with
    | ⟨0, _⟩ => rfl
    | ⟨1, _⟩ => rfl
    | ⟨2, _⟩ => exact hk
  have hR : dot_S4x4096x4096_S4096x64_S4x4096x64_2_0_01_1_n_n.rhsIdx (ix3 r i f)
      ((contrEquiv1 dot_S4x4096x4096_S4096x64_S4x4096x64_2_0_01_1_n_n 4096 rfl rfl).symm k) = ix2 k f := by
    funext a
    apply Fin.ext
    match a with
    | ⟨0, _⟩ => exact hk
    | ⟨1, _⟩ => rfl
  rw [hL, hR]

/-- The reference's aggregate of the specification's attention is the specification's aggregate. -/
theorem agg_spec (edge : FVec Ideal S4x4096x4096 .f32) (wh : FVec Ideal S4096x64 .f32) (wh1 wh2 : FVec Ideal S4096x1 .f32) :
    aggOf (Cert.Spec.attArr edge wh1 wh2) wh = Cert.Spec.aggArr edge wh wh1 wh2 := by
  funext y
  obtain ⟨r, i, f, rfl⟩ : ∃ (r : Fin 4) (i : Fin 4096) (f : Fin 64), y = ix3 r i f := ⟨y 0, y 1, y 2, eq_ix3 y⟩
  rw [aggOf_apply]
  rfl

/-- The reference's exponential linear unit is the specification's, pointwise. -/
theorem eluOf_apply (x : FVec Ideal S4096x256 .f32) (y : S4096x256.Idx) : eluOf x y = Cert.Spec.elu (x y) :=
  elu_scalar (x y)

/-- The reference's output over the specification's aggregate is the specification's output. -/
theorem out_spec (edge : FVec Ideal S4x4096x4096 .f32) (wh : FVec Ideal S4096x64 .f32) (wh1 wh2 : FVec Ideal S4096x1 .f32) :
    eluOf (F := Ideal) (sideBySide (Cert.Spec.aggArr edge wh wh1 wh2))
      = Cert.Spec.outArr edge wh wh1 wh2 transposes_S4x4096x64_S4096x4x64_1_0_2 shapeCasts_S4096x4x64_S4096x256 := by
  funext y
  rw [eluOf_apply]
  rfl

end Cert.RefSide

end
-- ==== Proof.RefValue.lean ====
/-
  The reference's run, stated against the specification.

  Every weakly fair execution of the reference's @main terminates; its first result buffer then holds the
  specification's output and its second the specification's attention, both over the edge weights and the three host
  products of the arguments (the projected features and the two logit columns, kept as the products they are), and the
  four argument buffers hold what they held.
-/
import proofs.«163317_j45689862094922_1_alg».proof.Proof.RefRead

noncomputable section

namespace Cert.RefSide

open Cert.ReferenceIdeal Cert.ReferenceIdeal.Gen Idealize.ShloMosaic Idealize.ShloMosaic.TcCoe Idealize.SL.Sem Idealize.ShloMosaic.StableHlo

/-- The projected features from the launch contents: the node features times the weight matrix, [4096, 64]. -/
def wh (m : (ℓ : Loc nD τ sig) → Buf (Elt Ideal) ℓ) (c : Dev nD) : Cert.Spec.SWh.Idx → EReal :=
  Host.dotGeneral (F := Ideal) (φ₁ := .f32) (φ₂ := .f32) dot_S4096x256_S256x64_S4096x64_1_0_0_1_n_n none
    (m ((c.tc : Thread nD τ).loc main_arg0) : FVec Ideal S4096x256 .f32) (m ((c.tc : Thread nD τ).loc main_arg2) : FVec Ideal S256x64 .f32)

/-- The source logits from the launch contents: the projected features times the first half of the attention vector, [4096, 1]. -/
def wh1 (m : (ℓ : Loc nD τ sig) → Buf (Elt Ideal) ℓ) (c : Dev nD) : Cert.Spec.SCol.Idx → EReal :=
  Host.dotGeneral (F := Ideal) (φ₁ := .f32) (φ₂ := .f32) dot_S4096x64_S64x1_S4096x1_1_0_0_1_n_n none (wh m c : FVec Ideal S4096x64 .f32)
    (extractStridedSlice S64x1 ![0, 0] (m ((c.tc : Thread nD τ).loc main_arg3) : FVec Ideal S128x1 .f32) slices_S128x1_S64x1_0_0)

/-- The target logits from the launch contents: the projected features times the second half, [4096, 1]. -/
def wh2 (m : (ℓ : Loc nD τ sig) → Buf (Elt Ideal) ℓ) (c : Dev nD) : Cert.Spec.SCol.Idx → EReal :=
  Host.dotGeneral (F := Ideal) (φ₁ := .f32) (φ₂ := .f32) dot_S4096x64_S64x1_S4096x1_1_0_0_1_n_n none (wh m c : FVec Ideal S4096x64 .f32)
    (extractStridedSlice S64x1 ![64, 0] (m ((c.tc : Thread nD τ).loc main_arg3) : FVec Ideal S128x1 .f32) slices_S128x1_S64x1_64_0)

/-- The three products are the stage terms' products of the launch contents. -/
theorem wh_eq (m : (ℓ : Loc nD τ sig) → Buf (Elt Ideal) ℓ) (c : Dev nD) :
    whOf (F := Ideal) (m ((c.tc : Thread nD τ).loc main_arg0)) (m ((c.tc : Thread nD τ).loc main_arg2)) = wh m c := rfl
theorem wh1_eq (m : (ℓ : Loc nD τ sig) → Buf (Elt Ideal) ℓ) (c : Dev nD) :
    wh1Of (F := Ideal) (wh m c) (m ((c.tc : Thread nD τ).loc main_arg3)) = wh1 m c := rfl
theorem wh2_eq (m : (ℓ : Loc nD τ sig) → Buf (Elt Ideal) ℓ) (c : Dev nD) :
    wh2Of (F := Ideal) (wh m c) (m ((c.tc : Thread nD τ).loc main_arg3)) = wh2 m c := rfl

/-- The attention term over the launch contents is the specification's attention. -/
theorem att_val (m : (ℓ : Loc nD τ sig) → Buf (Elt Ideal) ℓ) (c : Dev nD) :
    attTerm (F := Ideal) (m ((c.tc : Thread nD τ).loc main_arg0)) (m ((c.tc : Thread nD τ).loc main_arg1))
        (m ((c.tc : Thread nD τ).loc main_arg2)) (m ((c.tc : Thread nD τ).loc main_arg3))
      = Cert.Spec.attArr (m ((c.tc : Thread nD τ).loc main_arg1)) (wh1 m c) (wh2 m c) := by
  unfold attTerm
  rw [wh_eq m c, wh1_eq m c, wh2_eq m c]
  exact att_spec (wh1 m c) (wh2 m c) (m ((c.tc : Thread nD τ).loc main_arg1))

/-- The output term over the launch contents is the specification's output. -/
theorem out_val (m : (ℓ : Loc nD τ sig) → Buf (Elt Ideal) ℓ) (c : Dev nD) :
    outTerm (F := Ideal) (m ((c.tc : Thread nD τ).loc main_arg0)) (m ((c.tc : Thread nD τ).loc main_arg1))
        (m ((c.tc : Thread nD τ).loc main_arg2)) (m ((c.tc : Thread nD τ).loc main_arg3))
      = Cert.Spec.outArr (m ((c.tc : Thread nD τ).loc main_arg1)) (wh m c) (wh1 m c) (wh2 m c)
          transposes_S4x4096x64_S4096x4x64_1_0_2 shapeCasts_S4096x4x64_S4096x256 := by
  unfold outTerm
  rw [att_val m c, wh_eq m c]
  exact (congrArg (fun g => eluOf (F := Ideal) (sideBySide g))
      (agg_spec (m ((c.tc : Thread nD τ).loc main_arg1)) (wh m c) (wh1 m c) (wh2 m c))).trans
    (out_spec (m ((c.tc : Thread nD τ).loc main_arg1)) (wh m c) (wh1 m c) (wh2 m c))

/-- At the compiled mesh, at the ideal values, from any memory with zero counters: every weakly fair execution of the
    reference's @main terminates with the first result at the specification's output, the second at the specification's
    attention, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30) = Cert.Spec.outArr (m ((c.tc : Thread nD τ).loc main_arg1)) (Cert.RefSide.wh m c) (Cert.RefSide.wh1 m c) (Cert.RefSide.wh2 m c) transposes_S4x4096x64_S4096x4x64_1_0_2 shapeCasts_S4096x4x64_S4096x256
      ∧ r.2.mem ((c.tc : Thread nD τ).loc main_v26) = Cert.Spec.attArr (m ((c.tc : Thread nD τ).loc main_arg1)) (Cert.RefSide.wh1 m c) (Cert.RefSide.wh2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v30).trans ((out_eq _).trans (out_val m c)),
      (h c main_v26).trans ((att_eq _).trans (att_val m c)),
      (h c main_arg0).trans (arg0_eq _),
      (h c main_arg1).trans (arg1_eq _),
      (h c main_arg2).trans (arg2_eq _),
      (h c main_arg3).trans (arg3_eq _)⟩)
    (run_main m ρ)

end Cert.RefSide

end
-- ==== Proof.lean ====
/-
  The certificate's five claims for the graph-attention layer.

  Both programs compute, from node features h, per-relation edge weights and the parameters W and a: the projected features
  wh = h · W and the logits wh1 = wh · a[0:64], wh2 = wh · a[64:128]; for each relation r and each pair (i, j) the masked
  score — the leaky rectifier of wh1 i + wh2 j times the edge weight where that weight is positive, a large negative fill
  elsewhere —; the softmax of every column j over the rows i (the attention, the second result); the attention contracted
  with wh over j; and the four relations' aggregates laid side by side under the exponential linear unit (the first result).

  The kernel tiles the columns: one grid point per relation and tile of 256 columns holds all 4096 rows of the tile, so
  each column's softmax is computed whole inside one point, and the contraction over j is accumulated tile by tile in the
  output block of the relation, from zero at the first tile. Over the extended reals a sum taken block by block is the
  whole sum (only commutativity, associativity and 0 + x = x are used: no finiteness), so the accumulated block after the
  last tile is the reference's one contraction. The reference's rectifier tests s ≥ 0 where the kernel tests s > 0: they
  differ only at s = 0, where slope · 0 = 0 = s. The reference's unit is 1 · expm1(x) on the non-positive branch, the
  kernel's exp x − 1: the same extended real. The rounding of the product's operands to bf16 is the identity at the ideal
  values. The three host products before the kernel are the same operations in both programs and are never opened.

  The word-level kernel and its idealization run, without fault, leaving the arguments unchanged, by their generated frame
  certificates; the reference's frame is its run with the results dropped; the ideal pass rewrote nothing, so the
  idealization is the kernel's own text read at the ideal values.
-/
import proofs.«163317_j45689862094922_1_alg».proof.Defs
import proofs.«163317_j45689862094922_1_alg».proof.Proof.Gen.Kernel
import proofs.«163317_j45689862094922_1_alg».proof.Proof.Gen.Kernel.Skeleton
import proofs.«163317_j45689862094922_1_alg».proof.Proof.Gen.Kernel.Launch
import proofs.«163317_j45689862094922_1_alg».proof.Proof.Gen.Kernel.Points
import proofs.«163317_j45689862094922_1_alg».proof.Proof.Gen.Kernel.Frame
import proofs.«163317_j45689862094922_1_alg».proof.Proof.Gen.KernelIdeal
import proofs.«163317_j45689862094922_1_alg».proof.Proof.Gen.KernelIdeal.Skeleton
import proofs.«163317_j45689862094922_1_alg».proof.Proof.Gen.KernelIdeal.Launch
import proofs.«163317_j45689862094922_1_alg».proof.Proof.Gen.KernelIdeal.Points
import proofs.«163317_j45689862094922_1_alg».proof.Proof.Gen.KernelIdeal.Frame
import proofs.«163317_j45689862094922_1_alg».proof.Proof.Gen.ReferenceIdeal
import proofs.«163317_j45689862094922_1_alg».proof.Proof.Gen.Pre_finite_inputs
import proofs.«163317_j45689862094922_1_alg».proof.Proof.KRun
import proofs.«163317_j45689862094922_1_alg».proof.Proof.RefValue
import Idealize.ShloMosaic.Adequacy
import Idealize.ShloMosaic.Init

noncomputable section

namespace Cert.Proof

open Idealize.ShloMosaic Idealize.SL.Sem

/-! ## The host products agree on memories that agree on the arguments -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))

include h0 h2 in
/-- The projected features: the same product of the same two arguments. -/
theorem wh_agree : Cert.RefSide.wh m' c = Cert.KernelIdeal.HostPre.wh m c := by
  unfold Cert.RefSide.wh Cert.KernelIdeal.HostPre.wh
  rw [h0, h2]
  rfl

include h0 h2 h3 in
/-- The source logits, -/
theorem wh1_agree : Cert.RefSide.wh1 m' c = Cert.KernelIdeal.HostPre.wh1 m c := by
  unfold Cert.RefSide.wh1 Cert.KernelIdeal.HostPre.wh1
  rw [wh_agree m m' c h0 h2, h3]
  rfl

include h0 h2 h3 in
/-- and the target logits. -/
theorem wh2_agree : Cert.RefSide.wh2 m' c = Cert.KernelIdeal.HostPre.wh2 m c := by
  unfold Cert.RefSide.wh2 Cert.KernelIdeal.HostPre.wh2
  rw [wh_agree m m' c h0 h2, h3]
  rfl

end Agree

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.RefSide.run m ρ)

/-- The ideal pass rewrote nothing. -/
theorem preserves : Cert.preserves_Kernel_KernelIdeal := trivial

/-- At the ideal values both programs end at the specification's output and attention of arguments that agree. -/
theorem algebraic : Cert.algebraic_KernelIdeal_ReferenceIdeal := by
  intro m ρ m' ρ' _ hagree
  refine ⟨fun c => Cert.KernelIdeal.Run.outRes m c, fun c => Cert.KernelIdeal.Final.attRes m c, Cert.KernelIdeal.Run.run m ρ, ?_⟩
  refine (θ_run Cert.ReferenceIdeal.defs _ _).mono (fun _ h c => ?_) (Cert.RefSide.run m' ρ')
  obtain ⟨h1, h2, h3⟩ := h c
  obtain ⟨a0, a1, a2, a3⟩ := hagree c
  have e : Cert.RefSide.wh m' c = Cert.KernelIdeal.HostPre.wh m c := wh_agree m m' c a0 a2
  have e1 : Cert.RefSide.wh1 m' c = Cert.KernelIdeal.HostPre.wh1 m c := wh1_agree m m' c a0 a2 a3
  have e2 : Cert.RefSide.wh2 m' c = Cert.KernelIdeal.HostPre.wh2 m c := wh2_agree m m' c a0 a2 a3
  refine ⟨h1.trans ?_, h2.trans ?_, h3⟩
  · rw [e, e1, e2, a1]
    rfl
  · rw [e1, e2, a1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
